-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S4x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S4x2048x768 : Shape := ⟨3, ![4, 2048, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S768x2304 : Shape := ⟨2, ![768, 2304]⟩
abbrev S1x2304 : Shape := ⟨2, ![1, 2304]⟩
abbrev S4x16x2048x48 : Shape := ⟨4, ![4, 16, 2048, 48]⟩
abbrev S1x512x768 : Shape := ⟨3, ![1, 512, 768]⟩
abbrev S1x16x512x48 : Shape := ⟨4, ![1, 16, 512, 48]⟩
abbrev S512x768 : Shape := ⟨2, ![512, 768]⟩
abbrev S512x2304 : Shape := ⟨2, ![512, 2304]⟩
abbrev S512x16x48 : Shape := ⟨3, ![512, 16, 48]⟩
abbrev S16x512x48 : Shape := ⟨3, ![16, 512, 48]⟩
abbrev S1x1x2048x48 : Shape := ⟨4, ![1, 1, 2048, 48]⟩
abbrev S2048x48 : Shape := ⟨2, ![2048, 48]⟩
abbrev S48x2048 : Shape := ⟨2, ![48, 2048]⟩
abbrev S2048x2048 : Shape := ⟨2, ![2048, 2048]⟩
abbrev S2048 : Shape := ⟨1, ![2048]⟩
abbrev S2048x1 : Shape := ⟨2, ![2048, 1]⟩
abbrev S1x768 : Shape := ⟨2, ![1, 768]⟩

abbrev nBuf : Space → Nat
  | .hbm => 22
  | .vmem => 26
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2304x768, .f32⟩
  | .hbm, ⟨10, _⟩ => ⟨S2304, .f32⟩
  | .hbm, ⟨11, _⟩ => ⟨S768x2304, .f32⟩
  | .hbm, ⟨12, _⟩ => ⟨S768x2304, .bf16⟩
  | .hbm, ⟨13, _⟩ => ⟨S1x2304, .f32⟩
  | .hbm, ⟨14, _⟩ => ⟨S4x16x2048x48, .bf16⟩
  | .hbm, ⟨15, _⟩ => ⟨S4x16x2048x48, .bf16⟩
  | .hbm, ⟨16, _⟩ => ⟨S4x16x2048x48, .bf16⟩
  | .hbm, ⟨17, _⟩ => ⟨S4x16x2048x48, .bf16⟩
  | .hbm, ⟨18, _⟩ => ⟨S768x768, .f32⟩
  | .hbm, ⟨19, _⟩ => ⟨S768x768, .bf16⟩
  | .hbm, ⟨20, _⟩ => ⟨S1x768, .f32⟩
  | .hbm, ⟨21, _⟩ => ⟨S4x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x2304, .bf16⟩
  | .local _ .vmem, ⟨3, _⟩ => ⟨S1x2304, .f32⟩
  | .local _ .vmem, ⟨4, _⟩ => ⟨S1x16x512x48, .bf16⟩
  | .local _ .vmem, ⟨5, _⟩ => ⟨S1x16x512x48, .bf16⟩
  | .local _ .vmem, ⟨6, _⟩ => ⟨S1x16x512x48, .bf16⟩
  | .local _ .vmem, ⟨7, _⟩ => ⟨S1x16x512x48, .bf16⟩
  | .local _ .vmem, ⟨8, _⟩ => ⟨S1x16x512x48, .bf16⟩
  | .local _ .vmem, ⟨9, _⟩ => ⟨S1x16x512x48, .bf16⟩
  | .local _ .vmem, ⟨10, _⟩ => ⟨S1x1x2048x48, .bf16⟩
  | .local _ .vmem, ⟨11, _⟩ => ⟨S1x1x2048x48, .bf16⟩
  | .local _ .vmem, ⟨12, _⟩ => ⟨S1x1x2048x48, .bf16⟩
  | .local _ .vmem, ⟨13, _⟩ => ⟨S1x1x2048x48, .bf16⟩
  | .local _ .vmem, ⟨14, _⟩ => ⟨S1x1x2048x48, .bf16⟩
  | .local _ .vmem, ⟨15, _⟩ => ⟨S1x1x2048x48, .bf16⟩
  | .local _ .vmem, ⟨16, _⟩ => ⟨S1x1x2048x48, .bf16⟩
  | .local _ .vmem, ⟨17, _⟩ => ⟨S1x1x2048x48, .bf16⟩
  | .local _ .vmem, ⟨18, _⟩ => ⟨S1x512x768, .f32⟩
  | .local _ .vmem, ⟨19, _⟩ => ⟨S1x512x768, .f32⟩
  | .local _ .vmem, ⟨20, _⟩ => ⟨S1x16x512x48, .bf16⟩
  | .local _ .vmem, ⟨21, _⟩ => ⟨S1x16x512x48, .bf16⟩
  | .local _ .vmem, ⟨22, _⟩ => ⟨S768x768, .bf16⟩
  | .local _ .vmem, ⟨23, _⟩ => ⟨S1x768, .f32⟩
  | .local _ .vmem, ⟨24, _⟩ => ⟨S1x512x768, .f32⟩
  | .local _ .vmem, ⟨25, _⟩ => ⟨S1x512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x48 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x48 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x48 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x2048x48 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x48 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x48 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x48 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x512x48 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  concatenates_S768x768_S768x768_S768x768_S2304x768_d0 : Shape.Concatenates [S768x768, S768x768, S768x768] S2304x768 0
  concatenates_S768_S768_S768_S2304_d0 : Shape.Concatenates [S768, S768, S768] S2304 0
  transposes_S2304x768_S768x2304_1_0 : S2304x768.Transposes [1, 0] S768x2304
  bitsLt_bf16_f32 : FTy.bits .bf16 < FTy.bits .f32
  shapeCasts_S2304_S1x2304 : S2304.ShapeCasts S1x2304
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  slices_S512x2304_o0_0_S512x768 : S512x2304.Slices ![0, 0] S512x768
  shapeCasts_S512x768_S512x16x48 : S512x768.ShapeCasts S512x16x48
  transposes_S512x16x48_p1_0_2_S16x512x48 : S512x16x48.Transposes [1, 0, 2] S16x512x48
  inb_S1x16x512x48_S1x16x512x48_0_0_0_0 : ∀ a, (![0, 0, 0, 0] : Fin 4 → Nat) a + S1x16x512x48.size a ≤ S1x16x512x48.size a
  h_S1x16x512x48 : 0 < S1x16x512x48.numel
  shapeCasts_S1x16x512x48_S16x512x48 : S1x16x512x48.ShapeCasts S16x512x48
  shapeCasts_S16x512x48_S1x16x512x48 : S16x512x48.ShapeCasts S1x16x512x48
  packedbf16_S1x16x512x48_S1x16x512x48_0_0_0_0 : (Rect.unit (s := S1x16x512x48) ![0, 0, 0, 0] S1x16x512x48.size inb_S1x16x512x48_S1x16x512x48_0_0_0_0).PackedRows (EltTy.packing .bf16)
  slices_S512x2304_o0_768_S512x768 : S512x2304.Slices ![0, 768] S512x768
  slices_S512x2304_o0_1536_S512x768 : S512x2304.Slices ![0, 1536] S512x768
  inb_S1x1x2048x48_S1x1x2048x48_0_0_0_0 : ∀ a, (![0, 0, 0, 0] : Fin 4 → Nat) a + S1x1x2048x48.size a ≤ S1x1x2048x48.size a
  h_S1x1x2048x48 : 0 < S1x1x2048x48.numel
  shapeCasts_S1x1x2048x48_S2048x48 : S1x1x2048x48.ShapeCasts S2048x48
  transposes_S2048x48_p1_0_S48x2048 : S2048x48.Transposes [1, 0] S48x2048
  reduces_S2048x2048_S2048 : S2048x2048.Reduces [1] S2048
  shapeCasts_S2048_S2048x1 : S2048.ShapeCasts S2048x1
  broadcasts_S2048x1_S2048x2048 : S2048x1.Broadcasts S2048x2048
  shapeCasts_S2048x48_S1x1x2048x48 : S2048x48.ShapeCasts S1x1x2048x48
  packedbf16_S1x1x2048x48_S1x1x2048x48_0_0_0_0 : (Rect.unit (s := S1x1x2048x48) ![0, 0, 0, 0] S1x1x2048x48.size inb_S1x1x2048x48_S1x1x2048x48_0_0_0_0).PackedRows (EltTy.packing .bf16)
  transposes_S768x768_S768x768_1_0 : S768x768.Transposes [1, 0] S768x768
  shapeCasts_S768_S1x768 : S768.ShapeCasts S1x768
  transposes_S16x512x48_p1_0_2_S512x16x48 : S16x512x48.Transposes [1, 0, 2] S512x16x48
  shapeCasts_S512x16x48_S512x768 : S512x16x48.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S512x768_S1x512x768 : S512x768.ShapeCasts S1x512x768
  dot_S512x768_S768x2304_S512x2304_1_0_0_1_n_n_wf : DotDims.WF S512x768 S768x2304 S512x2304 [1] [0] [0] [1] [] []
  dot_S2048x48_S48x2048_S2048x2048_1_0_0_1_n_n_wf : DotDims.WF S2048x48 S48x2048 S2048x2048 [1] [0] [0] [1] [] []
  dot_S2048x2048_S2048x48_S2048x48_1_0_0_1_n_n_wf : DotDims.WF S2048x2048 S2048x48 S2048x48 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x2048x768.size a
  hwx0_0 : ∀ i : grid0.Coords, EltTy.bits .f32 = 32 ∨ (Rect.block (s := S4x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x48.size a ≤ S4x16x2048x48.size a
  hwx0_3 : ∀ i : grid0.Coords, EltTy.bits .bf16 = 32 ∨ (Rect.block (s := S4x16x2048x48) S1x16x512x48.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x48.size a ≤ S4x16x2048x48.size a
  hwx0_4 : ∀ i : grid0.Coords, EltTy.bits .bf16 = 32 ∨ (Rect.block (s := S4x16x2048x48) S1x16x512x48.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x48.size a ≤ S4x16x2048x48.size a
  hwx0_5 : ∀ i : grid0.Coords, EltTy.bits .bf16 = 32 ∨ (Rect.block (s := S4x16x2048x48) S1x16x512x48.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x48.size a ≤ S4x16x2048x48.size a
  hwx1_0 : ∀ i : grid1.Coords, EltTy.bits .bf16 = 32 ∨ (Rect.block (s := S4x16x2048x48) S1x1x2048x48.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x48.size a ≤ S4x16x2048x48.size a
  hwx1_1 : ∀ i : grid1.Coords, EltTy.bits .bf16 = 32 ∨ (Rect.block (s := S4x16x2048x48) S1x1x2048x48.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x48.size a ≤ S4x16x2048x48.size a
  hwx1_2 : ∀ i : grid1.Coords, EltTy.bits .bf16 = 32 ∨ (Rect.block (s := S4x16x2048x48) S1x1x2048x48.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x48.size a ≤ S4x16x2048x48.size a
  hwx1_3 : ∀ i : grid1.Coords, EltTy.bits .bf16 = 32 ∨ (Rect.block (s := S4x16x2048x48) S1x1x2048x48.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x768.size a ≤ S4x2048x768.size a
  hwx2_0 : ∀ i : grid2.Coords, EltTy.bits .f32 = 32 ∨ (Rect.block (s := S4x2048x768) S1x512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x512x48.size a ≤ S4x16x2048x48.size a
  hwx2_1 : ∀ i : grid2.Coords, EltTy.bits .bf16 = 32 ∨ (Rect.block (s := S4x16x2048x48) S1x16x512x48.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .bf16 = 32 ∨ (Rect.block (s := S768x768) S768x768.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x768.size a ≤ S1x768.size a
  hwx2_3 : ∀ i : grid2.Coords, EltTy.bits .f32 = 32 ∨ (Rect.block (s := S1x768) S1x768.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x768.size a ≤ S4x2048x768.size a
  hwx2_4 : ∀ i : grid2.Coords, EltTy.bits .f32 = 32 ∨ (Rect.block (s := S4x2048x768) S1x512x768.size (cc2_transform_4 i) (hinb2_4 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S2048x48_S48x2048_S2048x2048_1_0_0_1_n_n : DotDims S2048x48 S48x2048 S2048x2048 where
  lhsContracting := [1]
  rhsContracting := [0]
  lhsNonContracting := [0]
  rhsNonContracting := [1]
  lhsBatch := []
  rhsBatch := []
  wf := dot_S2048x48_S48x2048_S2048x2048_1_0_0_1_n_n_wf
def dot_S2048x2048_S2048x48_S2048x48_1_0_0_1_n_n : DotDims S2048x2048 S2048x48 S2048x48 where
  lhsContracting := [1]
  rhsContracting := [0]
  lhsNonContracting := [0]
  rhsNonContracting := [1]
  lhsBatch := []
  rhsBatch := []
  wf := dot_S2048x2048_S2048x48_S2048x48_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x16x512x48.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x16x512x48.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x16x512x48.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S1x1x2048x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x1x2048x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1x1x2048x48.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1x2048x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x16x512x48.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x512x768.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x2048x768 : Shape := ⟨3, ![4, 2048, 768]⟩
abbrev S768x768 : Shape := ⟨2, ![768, 768]⟩
abbrev S768 : Shape := ⟨1, ![768]⟩
abbrev S1x1x768 : Shape := ⟨3, ![1, 1, 768]⟩
abbrev S4x2048x16x48 : Shape := ⟨4, ![4, 2048, 16, 48]⟩
abbrev S4x16x2048x48 : Shape := ⟨4, ![4, 16, 2048, 48]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S4x2048x768, .f32⟩
  | .hbm, ⟨10, _⟩ => ⟨S1x1x768, .f32⟩
  | .hbm, ⟨11, _⟩ => ⟨S4x2048x768, .f32⟩
  | .hbm, ⟨12, _⟩ => ⟨S4x2048x768, .f32⟩
  | .hbm, ⟨13, _⟩ => ⟨S4x2048x16x48, .f32⟩
  | .hbm, ⟨14, _⟩ => ⟨S4x16x2048x48, .f32⟩
  | .hbm, ⟨15, _⟩ => ⟨S4x2048x768, .f32⟩
  | .hbm, ⟨16, _⟩ => ⟨S1x1x768, .f32⟩
  | .hbm, ⟨17, _⟩ => ⟨S4x2048x768, .f32⟩
  | .hbm, ⟨18, _⟩ => ⟨S4x2048x768, .f32⟩
  | .hbm, ⟨19, _⟩ => ⟨S4x2048x16x48, .f32⟩
  | .hbm, ⟨20, _⟩ => ⟨S4x16x2048x48, .f32⟩
  | .hbm, ⟨21, _⟩ => ⟨S4x2048x768, .f32⟩
  | .hbm, ⟨22, _⟩ => ⟨S1x1x768, .f32⟩
  | .hbm, ⟨23, _⟩ => ⟨S4x2048x768, .f32⟩
  | .hbm, ⟨24, _⟩ => ⟨S4x2048x768, .f32⟩
  | .hbm, ⟨25, _⟩ => ⟨S4x2048x16x48, .f32⟩
  | .hbm, ⟨26, _⟩ => ⟨S4x16x2048x48, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x48, .f32⟩
  | .hbm, ⟨46, _⟩ => ⟨S4x2048x16x48, .f32⟩
  | .hbm, ⟨47, _⟩ => ⟨S4x2048x768, .f32⟩
  | .hbm, ⟨48, _⟩ => ⟨S4x2048x768, .f32⟩
  | .hbm, ⟨49, _⟩ => ⟨S4x2048x768, .f32⟩
  | .hbm, ⟨50, _⟩ => ⟨S1x1x768, .f32⟩
  | .hbm, ⟨51, _⟩ => ⟨S4x2048x768, .f32⟩
  | .hbm, ⟨52, _⟩ => ⟨S4x2048x768, .f32⟩
  | .hbm, ⟨53, _⟩ => ⟨S4x2048x768, .f32⟩
  | .hbm, ⟨54, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  shapeCasts_S4x2048x768_S4x2048x16x48 : S4x2048x768.ShapeCasts S4x2048x16x48
  transposes_S4x2048x16x48_S4x16x2048x48_0_2_1_3 : S4x2048x16x48.Transposes [0, 2, 1, 3] S4x16x2048x48
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x48_S4x2048x16x48_0_2_1_3 : S4x16x2048x48.Transposes [0, 2, 1, 3] S4x2048x16x48
  shapeCasts_S4x2048x16x48_S4x2048x768 : S4x2048x16x48.ShapeCasts S4x2048x768
  dot_S4x2048x768_S768x768_S4x2048x768_2_1_01_0_n_n_wf : DotDims.WF S4x2048x768 S768x768 S4x2048x768 [2] [1] [0, 1] [0] [] []
  dot_S4x16x2048x48_S4x16x2048x48_S4x16x2048x2048_3_3_2_2_01_01_wf : DotDims.WF S4x16x2048x48 S4x16x2048x48 S4x16x2048x2048 [3] [3] [2] [2] [0, 1] [0, 1]
  dot_S4x16x2048x2048_S4x16x2048x48_S4x16x2048x48_3_2_2_3_01_01_wf : DotDims.WF S4x16x2048x2048 S4x16x2048x48 S4x16x2048x48 [3] [2] [2] [3] [0, 1] [0, 1]

variable [Facts₀]

def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x16x2048x48_S4x16x2048x48_S4x16x2048x2048_3_3_2_2_01_01 : DotDims S4x16x2048x48 S4x16x2048x48 S4x16x2048x2048 where
  lhsContracting := [3]
  rhsContracting := [3]
  lhsNonContracting := [2]
  rhsNonContracting := [2]
  lhsBatch := [0, 1]
  rhsBatch := [0, 1]
  wf := dot_S4x16x2048x48_S4x16x2048x48_S4x16x2048x2048_3_3_2_2_01_01_wf
def dot_S4x16x2048x2048_S4x16x2048x48_S4x16x2048x48_3_2_2_3_01_01 : DotDims S4x16x2048x2048 S4x16x2048x48 S4x16x2048x48 where
  lhsContracting := [3]
  rhsContracting := [2]
  lhsNonContracting := [2]
  rhsNonContracting := [3]
  lhsBatch := [0, 1]
  rhsBatch := [0, 1]
  wf := dot_S4x16x2048x2048_S4x16x2048x48_S4x16x2048x48_3_2_2_3_01_01_wf

class Facts : Prop extends Facts₀ where

variable [Facts]
-- ==== Proof.K.Data.lean ====
/-
  The proof data of the three kernel regions, stated at a parameter `V` (the TensorCore's buffer contents when a
  region is entered): each window's block at a grid point, what each body leaves in its output windows' staging
  buffers (the canon of its one whole-buffer store over the body's pure value of the input blocks), and the
  pipeline records built from them. Definitions and their projections only; the bodies' triples, the
  obligations and the run are in the sibling modules.
-/
import proofs.«110986_j16475494547544_2_alg».proof.Proof.Gen.Kernel.Launch
import proofs.«110986_j16475494547544_2_alg».proof.Proof.Gen.Kernel.Skeleton
import proofs.«110986_j16475494547544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The whole-buffer rectangles the bodies load and store through -/

abbrev rX : Rect S1x512x768 := Rect.unit (s := S1x512x768) ![0, 0, 0] S1x512x768.size inb_S1x512x768_S1x512x768_0_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rH : Rect S1x16x512x48 := Rect.unit (s := S1x16x512x48) ![0, 0, 0, 0] S1x16x512x48.size inb_S1x16x512x48_S1x16x512x48_0_0_0_0
abbrev rA : Rect S1x1x2048x48 := Rect.unit (s := S1x1x2048x48) ![0, 0, 0, 0] S1x1x2048x48.size inb_S1x1x2048x48_S1x1x2048x48_0_0_0_0
abbrev rWo : Rect S768x768 := Rect.unit (s := S768x768) ![0, 0] S768x768.size inb_S768x768_S768x768_0_0
abbrev rBo : Rect S1x768 := Rect.unit (s := S1x768) ![0, 0] S1x768.size inb_S1x768_S1x768_0_0

/-! ## Region 0: the fused projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the three output windows' staging buffers: one whole-buffer store each. -/
def out0_3 (x0 : Vec F S1x512x768 .f32) (x1 : Vec F S768x2304 .bf16) (x2 : Vec F S1x2304 .f32) : Vec F S1x16x512x48 .bf16 :=
  View.canon [⟨rH, k0_pay2 (View.ld x0 rX) (View.ld x1 rW) (View.ld x2 rB)⟩]
def out0_4 (x0 : Vec F S1x512x768 .f32) (x1 : Vec F S768x2304 .bf16) (x2 : Vec F S1x2304 .f32) : Vec F S1x16x512x48 .bf16 :=
  View.canon [⟨rH, k0_pay3 (View.ld x0 rX) (View.ld x1 rW) (View.ld x2 rB)⟩]
def out0_5 (x0 : Vec F S1x512x768 .f32) (x1 : Vec F S768x2304 .bf16) (x2 : Vec F S1x2304 .f32) : Vec F S1x16x512x48 .bf16 :=
  View.canon [⟨rH, k0_pay4 (View.ld x0 rX) (View.ld x1 rW) (View.ld x2 rB)⟩]

/-- A single whole-buffer piece covers the buffer. -/
theorem coverH (p0 : Vec F S1x16x512x48 .bf16) (y : S1x16x512x48.Idx) :
    ∃ pc ∈ ([⟨rH, p0⟩] : List (View.Piece (Elt F) S1x16x512x48 .bf16)), y ∈ pc.1.set :=
  View.cover_of_tiled [⟨rH, p0⟩] S1x16x512x48.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! ## Region 1: attention, one (batch, head) pair per point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 x1 x2 : Vec F S1x1x2048x48 .bf16) : Vec F S1x1x2048x48 .bf16 :=
  View.canon [⟨rA, k1_pay1 (View.ld x0 rA) (View.ld x1 rA) (View.ld x2 rA)⟩]

theorem coverA (p0 : Vec F S1x1x2048x48 .bf16) (y : S1x1x2048x48.Idx) :
    ∃ pc ∈ ([⟨rA, p0⟩] : List (View.Piece (Elt F) S1x1x2048x48 .bf16)), y ∈ pc.1.set :=
  View.cover_of_tiled [⟨rA, p0⟩] S1x1x2048x48.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! ## Region 2: the output projection with its residual sums -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S1x512x768 .f32) (x1 : Vec F S1x16x512x48 .bf16) (x2 : Vec F S768x768 .bf16) (x3 : Vec F S1x768 .f32) : Vec F S1x512x768 .f32 :=
  View.canon [⟨rX, k2_pay1 (View.ld x0 rX) (View.ld x1 rH) (View.ld x2 rWo) (View.ld x3 rBo)⟩]

theorem coverX (p0 : Vec F S1x512x768 .f32) (y : S1x512x768.Idx) :
    ∃ pc ∈ ([⟨rX, p0⟩] : List (View.Piece (Elt F) S1x512x768 .f32)), y ∈ pc.1.set :=
  View.cover_of_tiled [⟨rX, p0⟩] S1x512x768.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

end Cert.Kernel.Fr

end
-- ==== Proof.K.Body0.lean ====
/-
  The projection region's body. At every grid point each of its three input windows' staging buffers holds that
  window's block of the array the region found (the weight and the bias are brought in at the first point only and stay
  in place afterwards, their block never moving). Run on whole staging buffers, the body keeps its inputs and leaves in
  each of its three output buffers, at every index, its pure value of the three input blocks — one third of the columns
  of the input block's product with the weight, plus the bias, laid out head by head. The two together are what the pipeline asks of
  the body at every point.
-/
import proofs.«110986_j16475494547544_2_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' staging buffers

An input window's current staging buffer holds the window's block at every point, fetched there or not (when it is
not fetched the block index has not moved and the body left the block in place), for any proof data whose array is
`V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The body on whole staging buffers, input `W` reading `xW` and the outputs holding anything, runs to the
    continuation with every input still reading `xW` and every output reading `out0_W` of the `xW`: it reads each
    input whole, reads each output's buffer whole (a value it never uses) and then overwrites that buffer whole, so
    what the output held before does not matter. -/
theorem sound_kernel0 (c : Dev nD) (E : Set ℕ) (i : grid0.Coords) (arg0 : Memref sig .tc .vmem S1x512x768 .f32) (harg0 : arg0.IsWhole) (arg1 : Memref sig .tc .vmem S768x2304 .bf16) (harg1 : arg1.IsWhole) (arg2 : Memref sig .tc .vmem S1x2304 .f32) (harg2 : arg2.IsWhole) (arg3 : Memref sig .tc .vmem S1x16x512x48 .bf16) (harg3 : arg3.IsWhole) (arg4 : Memref sig .tc .vmem S1x16x512x48 .bf16) (harg4 : arg4.IsWhole) (arg5 : Memref sig .tc .vmem S1x16x512x48 .bf16) (harg5 : arg5.IsWhole)
    (x0 : Vec F S1x512x768 .f32) (x1 : Vec F S768x2304 .bf16) (x2 : Vec F S1x2304 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2)) -∗ K ⟨⟩))
      ⊢ wp frame (wpE (defs₀ (F := F)) Variants.none c none) E (cc0__qkv_kernel i arg0 harg0 arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverH _)
  isplitl [H4]
  · iexists _; isplitr
    swap; · iexact H4
    ipureintro
    exact View.read_writes_eq_canon _ _ _ (coverH _)
  iexists _; isplitr
  swap; · iexact H5
  ipureintro
  exact View.read_writes_eq_canon _ _ _ (coverH _)

/-! ## The inputs' buffers at the region's own proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body starts from at point `t`: the invariant, what the core owes, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it ends with: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies with `xW` the blocks;
    the region's invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  The attention region's body. At every grid point each of its three input windows' staging buffers holds that
  window's block (one batch-and-head pair's queries, keys, values) of the array the region found. Run on whole staging
  buffers, the body keeps its inputs and leaves in its output buffer, at every index, its pure value of the three input
  blocks — the softmax-weighted sum of the values for that pair. The two together are what the pipeline asks of the body
  at every point.
-/
import proofs.«110986_j16475494547544_2_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' staging buffers

An input window's current staging buffer holds the window's block at every point, fetched there or not (when it is
not fetched the block index has not moved and the body left the block in place), for any proof data whose array is
`V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The body on whole staging buffers, input `W` reading `xW` and the outputs holding anything, runs to the
    continuation with every input still reading `xW` and every output reading `out1_W` of the `xW`: it reads each
    input whole, reads each output's buffer whole (a value it never uses) and then overwrites that buffer whole, so
    what the output held before does not matter. -/
theorem sound_kernel1 (c : Dev nD) (E : Set ℕ) (i : grid1.Coords) (arg0 : Memref sig .tc .vmem S1x1x2048x48 .bf16) (harg0 : arg0.IsWhole) (arg1 : Memref sig .tc .vmem S1x1x2048x48 .bf16) (harg1 : arg1.IsWhole) (arg2 : Memref sig .tc .vmem S1x1x2048x48 .bf16) (harg2 : arg2.IsWhole) (arg3 : Memref sig .tc .vmem S1x1x2048x48 .bf16) (harg3 : arg3.IsWhole)
    (x0 : Vec F S1x1x2048x48 .bf16) (x1 : Vec F S1x1x2048x48 .bf16) (x2 : Vec F S1x1x2048x48 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attention_kernel i arg0 harg0 arg1 harg1 arg2 harg2 arg3 harg3) K := by
  simp only [cc1__attention_kernel_eq_skeleton]; unfold cc1__attention_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverA _)

/-! ## The inputs' buffers at the region's own proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body starts from at point `t`: the invariant, what the core owes, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it ends with: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies with `xW` the blocks;
    the region's invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  The output region's body. At every grid point each of its four input windows' staging buffers holds that window's
  block of the array the region found (the weight and the bias are brought in at the first point only and stay in place
  afterwards, their block never moving). Run on whole staging buffers, the body keeps its inputs and leaves in its output
  buffer, at every index, its pure value of the four input blocks — the heads laid side by side plus the input, times the
  weight plus the bias, plus the two residual terms. The two together are what the pipeline asks of the body at every
  point.
-/
import proofs.«110986_j16475494547544_2_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' staging buffers

An input window's current staging buffer holds the window's block at every point, fetched there or not (when it is
not fetched the block index has not moved and the body left the block in place), for any proof data whose array is
`V`'s and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 1000000 in
/-- The body on whole staging buffers, input `W` reading `xW` and the outputs holding anything, runs to the
    continuation with every input still reading `xW` and every output reading `out2_W` of the `xW`: it reads each
    input whole, reads each output's buffer whole (a value it never uses) and then overwrites that buffer whole, so
    what the output held before does not matter. -/
theorem sound_kernel2 (c : Dev nD) (E : Set ℕ) (i : grid2.Coords) (arg0 : Memref sig .tc .vmem S1x512x768 .f32) (harg0 : arg0.IsWhole) (arg1 : Memref sig .tc .vmem S1x16x512x48 .bf16) (harg1 : arg1.IsWhole) (arg2 : Memref sig .tc .vmem S768x768 .bf16) (harg2 : arg2.IsWhole) (arg3 : Memref sig .tc .vmem S1x768 .f32) (harg3 : arg3.IsWhole) (arg4 : Memref sig .tc .vmem S1x512x768 .f32) (harg4 : arg4.IsWhole)
    (x0 : Vec F S1x512x768 .f32) (x1 : Vec F S1x16x512x48 .bf16) (x2 : Vec F S768x768 .bf16) (x3 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__out_kernel i arg0 harg0 arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## The inputs' buffers at the region's own proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body starts from at point `t`: the invariant, what the core owes, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it ends with: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies with `xW` the blocks;
    the region's invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region's proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Vals.lean ====
/-
  The buffer contents at each boundary of the program's five items (a stretch of host operations, the projection
  region, the attention region, a second stretch, the output region), as a fold from the launch memory: a stretch
  applies its operations; a region leaves its windows' arrays at what its write-backs make of them and every
  other buffer as it found it.
-/
import proofs.«110986_j16475494547544_2_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered from the projection region's exit contents). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (the output region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the output region's exit: the program's end. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- A buffer no operation of a stretch writes keeps its contents through the stretch. -/
theorem W1_keep (c : Dev nD) (b : Ref sig .tc) (hb : b ∉ ([main_v0, main_v1, main_v2, main_v3, main_v4] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩))
theorem W4_keep (c : Dev nD) (b : Ref sig .tc) (hb : b ∉ ([main_v7, main_v8, main_v9] : List (Ref sig .tc))) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2⟩))

end Cert.Kernel.Fr

end
-- ==== Proof.K.RunMain.lean ====
/-
  The run of the three-region program: the program as five segments (a stretch of host operations, the projection
  region, the attention region entered straight from the projection's exit, a second stretch, the output region), each
  region an item over the thread state "every unscoped buffer at the boundary's contents, the random-number
  register at some state, nothing owed", and from the launch over the items: every weakly fair execution terminates
  with every unscoped buffer at the last boundary's contents, hence with every argument array as launched.
-/
import proofs.«110986_j16475494547544_2_alg».proof.Proof.K.Body0
import proofs.«110986_j16475494547544_2_alg».proof.Proof.K.Body1
import proofs.«110986_j16475494547544_2_alg».proof.Proof.K.Body2
import proofs.«110986_j16475494547544_2_alg».proof.Proof.K.Vals

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument and no region writes one: a region reads it through an input window (whose array
the write-backs leave alone) or does not touch it, so the fold of boundary contents at an argument's buffer walks back
to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

/-! ## The proof data family and the thread state -/

/-- No region reads a prefetched table, so the tables' admissible contents are the trivial ones. -/
abbrev adm : (p : Fin 3) → (pcfgs (F := F) p).Adm := fun p => (cfgs p).toPCfg_adm
/-- Every region's proof data, each at the contents its region is entered with: the projection's after the first
    stretch of host operations, the attention's at the projection's exit, the output region's after the second stretch. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What the core holds beside the buffers between any two items: its random-number register at some state, and that it
    owes nothing. -/
abbrev R (c : Dev nD) : sProp 𝕄 := iprop((∃ r, prngReg c r) ∗ ∃ W, owes (c : Thread nD τ) (0 : CellTallies nD τ sig Unit) W)
/-- A stretch of host operations as an item: from every unscoped buffer at the contents `W` (beside `R`) it ends with
    every unscoped buffer at what the stretch's operations, applied in order, make of `W` (beside `R`). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end, apart from owing nothing: every unscoped buffer at the last boundary's contents,
    the random-number register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The projection region between two items of the program. Before it the core holds every unscoped buffer at `W1`, its
    random-number register at some state, and owes nothing; after it the same with the buffers at `W2`. The
    region's window arrays are taken out of the unscoped buffers on entry and put back on exit holding what the
    write-backs leave; every other unscoped buffer is untouched; the register rides in the region's invariant and comes
    out; the region has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region between two items of the program. Before it the core holds every unscoped buffer at `W2`, its
    random-number register at some state, and owes nothing; after it the same with the buffers at `W3`. The
    region's window arrays are taken out of the unscoped buffers on entry and put back on exit holding what the
    write-backs leave; every other unscoped buffer is untouched; the register rides in the region's invariant and comes
    out; the region has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region between two items of the program. Before it the core holds every unscoped buffer at `W4`, its
    random-number register at some state, and owes nothing; after it the same with the buffers at `W5` (the program's end). The
    region's window arrays are taken out of the unscoped buffers on entry and put back on exit holding what the
    write-backs leave; every other unscoped buffer is untouched; the register rides in the region's invariant and comes
    out; the region has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five items in order, each from the contents the one before it ends with. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer of every core at the last boundary's contents. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every weakly fair execution terminates, nothing faulting, and every final state has the nine argument
    arrays as launched — each read off the last boundary's contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.Kernel.Fr

end
-- ==== Proof.KI.Data.lean ====
/-
  The proof data of the three kernel regions, stated at a parameter `V` (the TensorCore's buffer contents when a
  region is entered): each window's block at a grid point, what each body leaves in its output windows' staging
  buffers (the canon of its one whole-buffer store over the body's pure value of the input blocks), and the
  pipeline records built from them. Definitions and their projections only; the bodies' triples, the
  obligations and the run are in the sibling modules.
-/
import proofs.«110986_j16475494547544_2_alg».proof.Proof.Gen.KernelIdeal.Launch
import proofs.«110986_j16475494547544_2_alg».proof.Proof.Gen.KernelIdeal.Skeleton
import proofs.«110986_j16475494547544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The whole-buffer rectangles the bodies load and store through -/

abbrev rX : Rect S1x512x768 := Rect.unit (s := S1x512x768) ![0, 0, 0] S1x512x768.size inb_S1x512x768_S1x512x768_0_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rH : Rect S1x16x512x48 := Rect.unit (s := S1x16x512x48) ![0, 0, 0, 0] S1x16x512x48.size inb_S1x16x512x48_S1x16x512x48_0_0_0_0
abbrev rA : Rect S1x1x2048x48 := Rect.unit (s := S1x1x2048x48) ![0, 0, 0, 0] S1x1x2048x48.size inb_S1x1x2048x48_S1x1x2048x48_0_0_0_0
abbrev rWo : Rect S768x768 := Rect.unit (s := S768x768) ![0, 0] S768x768.size inb_S768x768_S768x768_0_0
abbrev rBo : Rect S1x768 := Rect.unit (s := S1x768) ![0, 0] S1x768.size inb_S1x768_S1x768_0_0

/-! ## Region 0: the fused projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the three output windows' staging buffers: one whole-buffer store each. -/
def out0_3 (x0 : Vec F S1x512x768 .f32) (x1 : Vec F S768x2304 .bf16) (x2 : Vec F S1x2304 .f32) : Vec F S1x16x512x48 .bf16 :=
  View.canon [⟨rH, k0_pay2 (View.ld x0 rX) (View.ld x1 rW) (View.ld x2 rB)⟩]
def out0_4 (x0 : Vec F S1x512x768 .f32) (x1 : Vec F S768x2304 .bf16) (x2 : Vec F S1x2304 .f32) : Vec F S1x16x512x48 .bf16 :=
  View.canon [⟨rH, k0_pay3 (View.ld x0 rX) (View.ld x1 rW) (View.ld x2 rB)⟩]
def out0_5 (x0 : Vec F S1x512x768 .f32) (x1 : Vec F S768x2304 .bf16) (x2 : Vec F S1x2304 .f32) : Vec F S1x16x512x48 .bf16 :=
  View.canon [⟨rH, k0_pay4 (View.ld x0 rX) (View.ld x1 rW) (View.ld x2 rB)⟩]

/-- A single whole-buffer piece covers the buffer. -/
theorem coverH (p0 : Vec F S1x16x512x48 .bf16) (y : S1x16x512x48.Idx) :
    ∃ pc ∈ ([⟨rH, p0⟩] : List (View.Piece (Elt F) S1x16x512x48 .bf16)), y ∈ pc.1.set :=
  View.cover_of_tiled [⟨rH, p0⟩] S1x16x512x48.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! ## Region 1: attention, one (batch, head) pair per point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 x1 x2 : Vec F S1x1x2048x48 .bf16) : Vec F S1x1x2048x48 .bf16 :=
  View.canon [⟨rA, k1_pay1 (View.ld x0 rA) (View.ld x1 rA) (View.ld x2 rA)⟩]

theorem coverA (p0 : Vec F S1x1x2048x48 .bf16) (y : S1x1x2048x48.Idx) :
    ∃ pc ∈ ([⟨rA, p0⟩] : List (View.Piece (Elt F) S1x1x2048x48 .bf16)), y ∈ pc.1.set :=
  View.cover_of_tiled [⟨rA, p0⟩] S1x1x2048x48.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! ## Region 2: the output projection with its residual sums -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S1x512x768 .f32) (x1 : Vec F S1x16x512x48 .bf16) (x2 : Vec F S768x768 .bf16) (x3 : Vec F S1x768 .f32) : Vec F S1x512x768 .f32 :=
  View.canon [⟨rX, k2_pay1 (View.ld x0 rX) (View.ld x1 rH) (View.ld x2 rWo) (View.ld x3 rBo)⟩]

theorem coverX (p0 : Vec F S1x512x768 .f32) (y : S1x512x768.Idx) :
    ∃ pc ∈ ([⟨rX, p0⟩] : List (View.Piece (Elt F) S1x512x768 .f32)), y ∈ pc.1.set :=
  View.cover_of_tiled [⟨rX, p0⟩] S1x512x768.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

end Cert.KernelIdeal.Fr

end
-- ==== Proof.KI.Body0.lean ====
/-
  The projection region's body. At every grid point each of its three input windows' staging buffers holds that
  window's block of the array the region found (the weight and the bias are brought in at the first point only and stay
  in place afterwards, their block never moving). Run on whole staging buffers, the body keeps its inputs and leaves in
  each of its three output buffers, at every index, its pure value of the three input blocks — one third of the columns
  of the input block's product with the weight, plus the bias, laid out head by head. The two together are what the pipeline asks of
  the body at every point.
-/
import proofs.«110986_j16475494547544_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' staging buffers

An input window's current staging buffer holds the window's block at every point, fetched there or not (when it is
not fetched the block index has not moved and the body left the block in place), for any proof data whose array is
`V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 1000000 in
/-- The body on whole staging buffers, input `W` reading `xW` and the outputs holding anything, runs to the
    continuation with every input still reading `xW` and every output reading `out0_W` of the `xW`: it reads each
    input whole, reads each output's buffer whole (a value it never uses) and then overwrites that buffer whole, so
    what the output held before does not matter. -/
theorem sound_kernel0 (c : Dev nD) (E : Set ℕ) (i : grid0.Coords) (arg0 : Memref sig .tc .vmem S1x512x768 .f32) (harg0 : arg0.IsWhole) (arg1 : Memref sig .tc .vmem S768x2304 .bf16) (harg1 : arg1.IsWhole) (arg2 : Memref sig .tc .vmem S1x2304 .f32) (harg2 : arg2.IsWhole) (arg3 : Memref sig .tc .vmem S1x16x512x48 .bf16) (harg3 : arg3.IsWhole) (arg4 : Memref sig .tc .vmem S1x16x512x48 .bf16) (harg4 : arg4.IsWhole) (arg5 : Memref sig .tc .vmem S1x16x512x48 .bf16) (harg5 : arg5.IsWhole)
    (x0 : Vec F S1x512x768 .f32) (x1 : Vec F S768x2304 .bf16) (x2 : Vec F S1x2304 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2)) -∗ K ⟨⟩))
      ⊢ wp frame (wpE (defs₀ (F := F)) Variants.none c none) E (cc0__qkv_kernel i arg0 harg0 arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverH _)
  isplitl [H4]
  · iexists _; isplitr
    swap; · iexact H4
    ipureintro
    exact View.read_writes_eq_canon _ _ _ (coverH _)
  iexists _; isplitr
  swap; · iexact H5
  ipureintro
  exact View.read_writes_eq_canon _ _ _ (coverH _)

/-! ## The inputs' buffers at the region's own proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body starts from at point `t`: the invariant, what the core owes, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it ends with: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies with `xW` the blocks;
    the region's invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  The attention region's body. At every grid point each of its three input windows' staging buffers holds that
  window's block (one batch-and-head pair's queries, keys, values) of the array the region found. Run on whole staging
  buffers, the body keeps its inputs and leaves in its output buffer, at every index, its pure value of the three input
  blocks — the softmax-weighted sum of the values for that pair. The two together are what the pipeline asks of the body
  at every point.
-/
import proofs.«110986_j16475494547544_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' staging buffers

An input window's current staging buffer holds the window's block at every point, fetched there or not (when it is
not fetched the block index has not moved and the body left the block in place), for any proof data whose array is
`V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The body on whole staging buffers, input `W` reading `xW` and the outputs holding anything, runs to the
    continuation with every input still reading `xW` and every output reading `out1_W` of the `xW`: it reads each
    input whole, reads each output's buffer whole (a value it never uses) and then overwrites that buffer whole, so
    what the output held before does not matter. -/
theorem sound_kernel1 (c : Dev nD) (E : Set ℕ) (i : grid1.Coords) (arg0 : Memref sig .tc .vmem S1x1x2048x48 .bf16) (harg0 : arg0.IsWhole) (arg1 : Memref sig .tc .vmem S1x1x2048x48 .bf16) (harg1 : arg1.IsWhole) (arg2 : Memref sig .tc .vmem S1x1x2048x48 .bf16) (harg2 : arg2.IsWhole) (arg3 : Memref sig .tc .vmem S1x1x2048x48 .bf16) (harg3 : arg3.IsWhole)
    (x0 : Vec F S1x1x2048x48 .bf16) (x1 : Vec F S1x1x2048x48 .bf16) (x2 : Vec F S1x1x2048x48 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attention_kernel i arg0 harg0 arg1 harg1 arg2 harg2 arg3 harg3) K := by
  simp only [cc1__attention_kernel_eq_skeleton]; unfold cc1__attention_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverA _)

/-! ## The inputs' buffers at the region's own proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body starts from at point `t`: the invariant, what the core owes, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it ends with: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies with `xW` the blocks;
    the region's invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  The output region's body. At every grid point each of its four input windows' staging buffers holds that window's
  block of the array the region found (the weight and the bias are brought in at the first point only and stay in place
  afterwards, their block never moving). Run on whole staging buffers, the body keeps its inputs and leaves in its output
  buffer, at every index, its pure value of the four input blocks — the heads laid side by side plus the input, times the
  weight plus the bias, plus the two residual terms. The two together are what the pipeline asks of the body at every
  point.
-/
import proofs.«110986_j16475494547544_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows' staging buffers

An input window's current staging buffer holds the window's block at every point, fetched there or not (when it is
not fetched the block index has not moved and the body left the block in place), for any proof data whose array is
`V`'s and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

set_option maxHeartbeats 1000000 in
/-- The body on whole staging buffers, input `W` reading `xW` and the outputs holding anything, runs to the
    continuation with every input still reading `xW` and every output reading `out2_W` of the `xW`: it reads each
    input whole, reads each output's buffer whole (a value it never uses) and then overwrites that buffer whole, so
    what the output held before does not matter. -/
theorem sound_kernel2 (c : Dev nD) (E : Set ℕ) (i : grid2.Coords) (arg0 : Memref sig .tc .vmem S1x512x768 .f32) (harg0 : arg0.IsWhole) (arg1 : Memref sig .tc .vmem S1x16x512x48 .bf16) (harg1 : arg1.IsWhole) (arg2 : Memref sig .tc .vmem S768x768 .bf16) (harg2 : arg2.IsWhole) (arg3 : Memref sig .tc .vmem S1x768 .f32) (harg3 : arg3.IsWhole) (arg4 : Memref sig .tc .vmem S1x512x768 .f32) (harg4 : arg4.IsWhole)
    (x0 : Vec F S1x512x768 .f32) (x1 : Vec F S1x16x512x48 .bf16) (x2 : Vec F S768x768 .bf16) (x3 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__out_kernel i arg0 harg0 arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## The inputs' buffers at the region's own proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body starts from at point `t`: the invariant, what the core owes, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it ends with: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies with `xW` the blocks;
    the region's invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the region's proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Vals.lean ====
/-
  The buffer contents at each boundary of the program's five items (a stretch of host operations, the projection
  region, the attention region, a second stretch, the output region), as a fold from the launch memory: a stretch
  applies its operations; a region leaves its windows' arrays at what its write-backs make of them and every
  other buffer as it found it.
-/
import proofs.«110986_j16475494547544_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered from the projection region's exit contents). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second stretch of host operations (the output region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At the output region's exit: the program's end. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- A buffer no operation of a stretch writes keeps its contents through the stretch. -/
theorem W1_keep (c : Dev nD) (b : Ref sig .tc) (hb : b ∉ ([main_v0, main_v1, main_v2, main_v3, main_v4] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2.1, StableHlo.devRef_ne_of_ne hb.2.2.2.2⟩))
theorem W4_keep (c : Dev nD) (b : Ref sig .tc) (hb : b ∉ ([main_v7, main_v8, main_v9] : List (Ref sig .tc))) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2⟩))

end Cert.KernelIdeal.Fr

end
-- ==== Proof.KI.RunMain.lean ====
/-
  The run of the three-region program: the program as five segments (a stretch of host operations, the projection
  region, the attention region entered straight from the projection's exit, a second stretch, the output region), each
  region an item over the thread state "every unscoped buffer at the boundary's contents, the random-number
  register at some state, nothing owed", and from the launch over the items: every weakly fair execution terminates
  with every unscoped buffer at the last boundary's contents, hence with every argument array as launched.
-/
import proofs.«110986_j16475494547544_2_alg».proof.Proof.KI.Body0
import proofs.«110986_j16475494547544_2_alg».proof.Proof.KI.Body1
import proofs.«110986_j16475494547544_2_alg».proof.Proof.KI.Body2
import proofs.«110986_j16475494547544_2_alg».proof.Proof.KI.Vals

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument and no region writes one: a region reads it through an input window (whose array
the write-backs leave alone) or does not touch it, so the fold of boundary contents at an argument's buffer walks back
to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat2 (V4 m ρ) c).arrAt_in 0 rfl _).trans (A_eq2 (V4 m ρ) c 0))
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

/-! ## The proof data family and the thread state -/

/-- No region reads a prefetched table, so the tables' admissible contents are the trivial ones. -/
abbrev adm : (p : Fin 3) → (pcfgs (F := F) p).Adm := fun p => (cfgs p).toPCfg_adm
/-- Every region's proof data, each at the contents its region is entered with: the projection's after the first
    stretch of host operations, the attention's at the projection's exit, the output region's after the second stretch. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What the core holds beside the buffers between any two items: its random-number register at some state, and that it
    owes nothing. -/
abbrev R (c : Dev nD) : sProp 𝕄 := iprop((∃ r, prngReg c r) ∗ ∃ W, owes (c : Thread nD τ) (0 : CellTallies nD τ sig Unit) W)
/-- A stretch of host operations as an item: from every unscoped buffer at the contents `W` (beside `R`) it ends with
    every unscoped buffer at what the stretch's operations, applied in order, make of `W` (beside `R`). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end, apart from owing nothing: every unscoped buffer at the last boundary's contents,
    the random-number register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The projection region between two items of the program. Before it the core holds every unscoped buffer at `W1`, its
    random-number register at some state, and owes nothing; after it the same with the buffers at `W2`. The
    region's window arrays are taken out of the unscoped buffers on entry and put back on exit holding what the
    write-backs leave; every other unscoped buffer is untouched; the register rides in the region's invariant and comes
    out; the region has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region between two items of the program. Before it the core holds every unscoped buffer at `W2`, its
    random-number register at some state, and owes nothing; after it the same with the buffers at `W3`. The
    region's window arrays are taken out of the unscoped buffers on entry and put back on exit holding what the
    write-backs leave; every other unscoped buffer is untouched; the register rides in the region's invariant and comes
    out; the region has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region between two items of the program. Before it the core holds every unscoped buffer at `W4`, its
    random-number register at some state, and owes nothing; after it the same with the buffers at `W5` (the program's end). The
    region's window arrays are taken out of the unscoped buffers on entry and put back on exit holding what the
    write-backs leave; every other unscoped buffer is untouched; the register rides in the region's invariant and comes
    out; the region has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five items in order, each from the contents the one before it ends with. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and every final state has every unscoped buffer of every core at the last boundary's contents. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every weakly fair execution terminates, nothing faulting, and every final state has the nine argument
    arrays as launched — each read off the last boundary's contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.KernelIdeal.Fr

end
-- ==== Proof.KI.Pay0.lean ====
/-
  The projection body's arithmetic read at one index. The body multiplies its block of 512 input rows by the fused
  weight matrix [768, 2304] and adds the fused bias row, then stores three column ranges of that product, each laid
  out by heads: feature `e = head * 48 + lane` of row `r` goes to position (head, r, lane). Both the product and
  each stored range are read here at explicit coordinates, over arbitrary loaded blocks.
-/
import proofs.«110986_j16475494547544_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Fr

open Cert.KernelIdeal Cert.KernelIdeal.Gen
open Idealize.ShloMosaic Idealize.ShloMosaic.ValueIdx

/-! ## The product's operand indices: row of the left factor, column of the right, the contraction index on the
    other axis of each -/

theorem dot0_lhs_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
theorem dot0_lhs_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
theorem dot0_rhs_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
theorem dot0_rhs_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The fused product at row `r`, column `j`: the row of the input block against column `j` of the weights, summed
    over the 768 input features in their order, plus the bias at `j`. -/
theorem pay0_1_apply (x0 : FVec Ideal S1x512x768 .f32) (x1 : FVec Ideal S768x2304 .bf16) (x2 : FVec Ideal S1x2304 .f32)
    (r : Fin 512) (j : Fin 2304) :
    k0_pay1 (F := Ideal) x0 x1 x2 (ix2 r j)
      = (∑ c : Fin 768, x0 (ix3 (0 : Fin 1) r c) * x1 (ix2 c j)) + x2 (ix2 (0 : Fin 1) j) := by
  unfold k0_pay1
  rw [addf_apply]
  refine congrArg₂ (· + ·) ?_ ?_
  · simp only [matmul]
    rw [Ideal.matmul_constant_zero_apply, ← Equiv.sum_comp (contrEquiv1 dot_S512x768_S768x2304_S512x2304_1_0_0_1_n_n 768 rfl rfl).symm]
    refine Finset.sum_congr rfl fun c _ => ?_
    have hk := contrEquiv1_symm_val dot_S512x768_S768x2304_S512x2304_1_0_0_1_n_n 768 rfl rfl c
    have el : dot_S512x768_S768x2304_S512x2304_1_0_0_1_n_n.lhsIdx (ix2 r j) ((contrEquiv1 dot_S512x768_S768x2304_S512x2304_1_0_0_1_n_n 768 rfl rfl).symm c) = ix2 r c := funext fun a => Fin.ext (by
      match a with
      | ⟨0, _⟩ => exact dot0_lhs_0 _ _
      | ⟨1, _⟩ => exact (dot0_lhs_1 _ _).trans hk)
    have er : dot_S512x768_S768x2304_S512x2304_1_0_0_1_n_n.rhsIdx (ix2 r j) ((contrEquiv1 dot_S512x768_S768x2304_S512x2304_1_0_0_1_n_n 768 rfl rfl).symm c) = ix2 c j := funext fun a => Fin.ext (by
      match a with
      | ⟨0, _⟩ => exact (dot0_rhs_0 _ _).trans hk
      | ⟨1, _⟩ => exact dot0_rhs_1 _ _)
    rw [el, er, truncf_apply, shapeCast_self]
    exact congrArg (· * x1 (ix2 c j)) (shapeCast_1ab_ab_apply x0 shapeCasts_S1x512x768_S512x768 r c)
  · rw [shapeCast_self]
    exact broadcastTo_1b_ab_apply x2 broadcasts_S1x2304_S512x2304 r j

/-- A column range of a [512, 2304] value laid out by heads: the range starting at column `o`, its 768 columns split
    into 16 heads of 48 lanes, heads brought in front of the rows, under a unit batch axis, reads at
    (head `h`, row `r`, lane `d`) the value at row `r`, column `o + h * 48 + d`. -/
theorem headLayout_apply (o : Nat) (Y : FVec Ideal S512x2304 .f32) (hs : S512x2304.Slices ![0, o] S512x768)
    (u : Fin 1) (h : Fin 16) (r : Fin 512) (d : Fin 48) (k : Fin 2304) (hk : k.val = o + (h.val * 48 + d.val)) :
    (shapeCast S1x16x512x48 (truncf .bf16 (transpose S16x512x48 [1, 0, 2] (shapeCast S512x16x48 (extractStridedSlice S512x768 ![0, o] Y hs) shapeCasts_S512x768_S512x16x48) transposes_S512x16x48_p1_0_2_S16x512x48) bitsLt_bf16_f32) shapeCasts_S16x512x48_S1x16x512x48 : FVec Ideal S1x16x512x48 .bf16) (ix4 u h r d)
      = Y (ix2 r k) := by
  refine (shapeCast_abc_1abc_apply _ shapeCasts_S16x512x48_S1x16x512x48 u h r d).trans ?_
  rw [truncf_apply]
  refine (transpose_apply [1, 0, 2] _ transposes_S512x16x48_p1_0_2_S16x512x48 (ix3 h r d) (ix3 r h d) (fun b => by
    match b with
    | ⟨0, _⟩ => rfl
    | ⟨1, _⟩ => rfl
    | ⟨2, _⟩ => rfl)).trans ?_
  have hlt : h.val * 48 + d.val < 768 := by have := h.isLt; have := d.isLt; omega
  refine (shapeCast_apply _ shapeCasts_S512x768_S512x16x48 (ix3 r h d) (ix2 r (⟨h.val * 48 + d.val, hlt⟩ : Fin 768)) (by
    rw [Shape.rowMajor_val_two, Shape.rowMajor_val_three]
    show r.val * 768 + (h.val * 48 + d.val) = (r.val * 16 + h.val) * 48 + d.val
    omega)).trans ?_
  exact slice2_axis1_apply o Y hs r (⟨h.val * 48 + d.val, hlt⟩ : Fin 768) k hk

/-- What the body stores to the first output: the product's columns [0, 768) by heads. -/
theorem pay0_2_apply (x0 : FVec Ideal S1x512x768 .f32) (x1 : FVec Ideal S768x2304 .bf16) (x2 : FVec Ideal S1x2304 .f32)
    (u : Fin 1) (h : Fin 16) (r : Fin 512) (d : Fin 48) (k : Fin 2304) (hk : k.val = 0 + (h.val * 48 + d.val)) :
    k0_pay2 (F := Ideal) x0 x1 x2 (ix4 u h r d)
      = (∑ c : Fin 768, x0 (ix3 (0 : Fin 1) r c) * x1 (ix2 c k)) + x2 (ix2 (0 : Fin 1) k) := by
  unfold k0_pay2
  exact (headLayout_apply 0 (k0_pay1 x0 x1 x2) slices_S512x2304_o0_0_S512x768 u h r d k hk).trans (pay0_1_apply x0 x1 x2 r k)

/-- The second: columns [768, 1536). -/
theorem pay0_3_apply (x0 : FVec Ideal S1x512x768 .f32) (x1 : FVec Ideal S768x2304 .bf16) (x2 : FVec Ideal S1x2304 .f32)
    (u : Fin 1) (h : Fin 16) (r : Fin 512) (d : Fin 48) (k : Fin 2304) (hk : k.val = 768 + (h.val * 48 + d.val)) :
    k0_pay3 (F := Ideal) x0 x1 x2 (ix4 u h r d)
      = (∑ c : Fin 768, x0 (ix3 (0 : Fin 1) r c) * x1 (ix2 c k)) + x2 (ix2 (0 : Fin 1) k) := by
  unfold k0_pay3
  exact (headLayout_apply 768 (k0_pay1 x0 x1 x2) slices_S512x2304_o0_768_S512x768 u h r d k hk).trans (pay0_1_apply x0 x1 x2 r k)

/-- The third: columns [1536, 2304). -/
theorem pay0_4_apply (x0 : FVec Ideal S1x512x768 .f32) (x1 : FVec Ideal S768x2304 .bf16) (x2 : FVec Ideal S1x2304 .f32)
    (u : Fin 1) (h : Fin 16) (r : Fin 512) (d : Fin 48) (k : Fin 2304) (hk : k.val = 1536 + (h.val * 48 + d.val)) :
    k0_pay4 (F := Ideal) x0 x1 x2 (ix4 u h r d)
      = (∑ c : Fin 768, x0 (ix3 (0 : Fin 1) r c) * x1 (ix2 c k)) + x2 (ix2 (0 : Fin 1) k) := by
  unfold k0_pay4
  exact (headLayout_apply 1536 (k0_pay1 x0 x1 x2) slices_S512x2304_o0_1536_S512x768 u h r d k hk).trans (pay0_1_apply x0 x1 x2 r k)

end Cert.KernelIdeal.Fr

end
-- ==== Proof.KI.Host0.lean ====
/-
  The host operations before the projection region, read at an index. They stack the three weight matrices
  [768, 768] on top of each other into [2304, 768], transpose that to [768, 2304] (so column `p * 768 + e` of the
  fused matrix is row `e` of the `p`-th weight matrix) and lay the three bias vectors end to end into one row
  [1, 2304]; the input array is not touched.
-/
import proofs.«110986_j16475494547544_2_alg».proof.Proof.KI.Vals
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem Idealize.ShloMosaic.StableHlo

/-! ## The fused weight matrix and bias row, over arbitrary pieces -/

/-- The three matrices stacked, transposed. -/
def fusedW (w0 w1 w2 : FVec Ideal S768x768 .f32) : FVec Ideal S768x2304 .bf16 :=
  truncf .bf16 (transpose S768x2304 [1, 0] (concatenate S2304x768 0 [⟨S768x768, w0⟩, ⟨S768x768, w1⟩, ⟨S768x768, w2⟩] concatenates_S768x768_S768x768_S768x768_S2304x768_d0) transposes_S2304x768_S768x2304_1_0) bitsLt_bf16_f32

/-- The three vectors end to end, as one row. -/
def fusedB (b0 b1 b2 : FVec Ideal S768 .f32) : FVec Ideal S1x2304 .f32 :=
  shapeCast S1x2304 (concatenate S2304 0 [⟨S768, b0⟩, ⟨S768, b1⟩, ⟨S768, b2⟩] concatenates_S768_S768_S768_S2304_d0) shapeCasts_S2304_S1x2304

theorem fusedW_apply0 (w0 w1 w2 : FVec Ideal S768x768 .f32) (cc e : Fin 768) (k : Fin 2304) (hk : k.val = 0 + e.val) :
    fusedW w0 w1 w2 (ix2 cc k) = w0 (ix2 e cc) := by
  unfold fusedW
  rw [truncf_apply]
  refine (transpose_ix2_apply _ transposes_S2304x768_S768x2304_1_0 cc k).trans ?_
  refine concatenate_apply_piece (t := S2304x768) (0 : Fin 2) [⟨S768x768, w0⟩, ⟨S768x768, w1⟩, ⟨S768x768, w2⟩] concatenates_S768x768_S768x768_S768x768_S2304x768_d0 (ix2 k cc) 0 (by show (0 : Nat) < 3; omega) S768x768 w0 rfl rfl 0 rfl (ix2 e cc) (fun b hb => ?_) (by show 0 + e.val = k.val; omega)
  match b with
  | ⟨0, _⟩ => exact absurd rfl hb
  | ⟨1, _⟩ => rfl

theorem fusedW_apply1 (w0 w1 w2 : FVec Ideal S768x768 .f32) (cc e : Fin 768) (k : Fin 2304) (hk : k.val = 768 + e.val) :
    fusedW w0 w1 w2 (ix2 cc k) = w1 (ix2 e cc) := by
  unfold fusedW
  rw [truncf_apply]
  refine (transpose_ix2_apply _ transposes_S2304x768_S768x2304_1_0 cc k).trans ?_
  refine concatenate_apply_piece (t := S2304x768) (0 : Fin 2) [⟨S768x768, w0⟩, ⟨S768x768, w1⟩, ⟨S768x768, w2⟩] concatenates_S768x768_S768x768_S768x768_S2304x768_d0 (ix2 k cc) 1 (by show (1 : Nat) < 3; omega) S768x768 w1 rfl rfl 768 rfl (ix2 e cc) (fun b hb => ?_) (by show 768 + e.val = k.val; omega)
  match b with
  | ⟨0, _⟩ => exact absurd rfl hb
  | ⟨1, _⟩ => rfl

theorem fusedW_apply2 (w0 w1 w2 : FVec Ideal S768x768 .f32) (cc e : Fin 768) (k : Fin 2304) (hk : k.val = 1536 + e.val) :
    fusedW w0 w1 w2 (ix2 cc k) = w2 (ix2 e cc) := by
  unfold fusedW
  rw [truncf_apply]
  refine (transpose_ix2_apply _ transposes_S2304x768_S768x2304_1_0 cc k).trans ?_
  refine concatenate_apply_piece (t := S2304x768) (0 : Fin 2) [⟨S768x768, w0⟩, ⟨S768x768, w1⟩, ⟨S768x768, w2⟩] concatenates_S768x768_S768x768_S768x768_S2304x768_d0 (ix2 k cc) 2 (by show (2 : Nat) < 3; omega) S768x768 w2 rfl rfl 1536 rfl (ix2 e cc) (fun b hb => ?_) (by show 1536 + e.val = k.val; omega)
  match b with
  | ⟨0, _⟩ => exact absurd rfl hb
  | ⟨1, _⟩ => rfl

theorem fusedB_apply0 (b0 b1 b2 : FVec Ideal S768 .f32) (e : Fin 768) (k : Fin 2304) (hk : k.val = 0 + e.val) :
    fusedB b0 b1 b2 (ix2 (0 : Fin 1) k) = b0 (ix1 e) := by
  unfold fusedB
  refine (shapeCast_a_1a_apply _ shapeCasts_S2304_S1x2304 0 k).trans ?_
  refine concatenate_apply_piece (t := S2304) (0 : Fin 1) [⟨S768, b0⟩, ⟨S768, b1⟩, ⟨S768, b2⟩] concatenates_S768_S768_S768_S2304_d0 (ix1 k) 0 (by show (0 : Nat) < 3; omega) S768 b0 rfl rfl 0 rfl (ix1 e) (fun b hb => ?_) (by show 0 + e.val = k.val; omega)
  match b with
  | ⟨0, _⟩ => exact absurd rfl hb

theorem fusedB_apply1 (b0 b1 b2 : FVec Ideal S768 .f32) (e : Fin 768) (k : Fin 2304) (hk : k.val = 768 + e.val) :
    fusedB b0 b1 b2 (ix2 (0 : Fin 1) k) = b1 (ix1 e) := by
  unfold fusedB
  refine (shapeCast_a_1a_apply _ shapeCasts_S2304_S1x2304 0 k).trans ?_
  refine concatenate_apply_piece (t := S2304) (0 : Fin 1) [⟨S768, b0⟩, ⟨S768, b1⟩, ⟨S768, b2⟩] concatenates_S768_S768_S768_S2304_d0 (ix1 k) 1 (by show (1 : Nat) < 3; omega) S768 b1 rfl rfl 768 rfl (ix1 e) (fun b hb => ?_) (by show 768 + e.val = k.val; omega)
  match b with
  | ⟨0, _⟩ => exact absurd rfl hb

theorem fusedB_apply2 (b0 b1 b2 : FVec Ideal S768 .f32) (e : Fin 768) (k : Fin 2304) (hk : k.val = 1536 + e.val) :
    fusedB b0 b1 b2 (ix2 (0 : Fin 1) k) = b2 (ix1 e) := by
  unfold fusedB
  refine (shapeCast_a_1a_apply _ shapeCasts_S2304_S1x2304 0 k).trans ?_
  refine concatenate_apply_piece (t := S2304) (0 : Fin 1) [⟨S768, b0⟩, ⟨S768, b1⟩, ⟨S768, b2⟩] concatenates_S768_S768_S768_S2304_d0 (ix1 k) 2 (by show (2 : Nat) < 3; omega) S768 b2 rfl rfl 1536 rfl (ix1 e) (fun b hb => ?_) (by show 1536 + e.val = k.val; omega)
  match b with
  | ⟨0, _⟩ => exact absurd rfl hb

/-! ## What the projection region finds in the three arrays it reads -/

variable (m : (ℓ : Loc nD τ sig) → Buf (Elt Ideal) ℓ) (ρ : Dev nD → PrngReg)

/-- The input array is the launch's. -/
theorem W1_arg0 (c : Dev nD) : W1 m ρ c (Proc.devRef .tc main_arg0) = m ((c : Thread nD τ).loc main_arg0) :=
  W1_keep m ρ c main_arg0 (by decide)

/-- The fused weights are those of the launch's three weight arrays. -/
theorem W1_v3 (c : Dev nD) : (W1 m ρ c (Proc.devRef .tc main_v3) : FVec Ideal S768x2304 .bf16)
    = fusedW (m ((c : Thread nD τ).loc main_arg1)) (m ((c : Thread nD τ).loc main_arg3)) (m ((c : Thread nD τ).loc main_arg5)) := by
  show StableHlo.after hostOps0 (W0 m ρ c) (Proc.devRef .tc main_v3) = _
  after_results
  rfl

/-- The fused bias row is that of the launch's three bias arrays. -/
theorem W1_v4 (c : Dev nD) : (W1 m ρ c (Proc.devRef .tc main_v4) : FVec Ideal S1x2304 .f32)
    = fusedB (m ((c : Thread nD τ).loc main_arg2)) (m ((c : Thread nD τ).loc main_arg4)) (m ((c : Thread nD τ).loc main_arg6)) := by
  show StableHlo.after hostOps0 (W0 m ρ c) (Proc.devRef .tc main_v4) = _
  after_results
  rfl

end Cert.KernelIdeal.Fr

end
-- ==== Proof.Spec.lean ====
/-
  Multi-head attention with two residual sums, as ONE function of the nine argument arrays over the extended reals:
  three linear projections of the input into the head layout [batch, head, position, lane] (feature
  `e = head * 48 + lane`), the scaled scores of every query position against every key position of the same
  (batch, head) pair, their row-wise softmax (the row's maximum subtracted before exponentiating), the
  probability-weighted sum of the values, the heads laid back side by side, the input added, a fourth linear
  map with its bias, and that sum and the input added once more each. Both programs compute this function;
  every sum keeps the order in which both of them take it, so no law beyond commutativity of the product and
  the distributivity of a nonnegative real factor over a sum is ever needed.
-/
import Idealize.ShloMosaic.PureOps.Ideal
import Idealize.ShloMosaic.Lib.ValueIdx

noncomputable section

open scoped BigOperators

namespace Attn

open Idealize.ShloMosaic Idealize.ShloMosaic.ValueIdx

/-- The input and the result: [batch 4, position 2048, feature 768]. -/
abbrev SX : Shape := ⟨3, ![4, 2048, 768]⟩
/-- A weight matrix [out feature 768, in feature 768]. -/
abbrev SW : Shape := ⟨2, ![768, 768]⟩
/-- A bias [768]. -/
abbrev SB : Shape := ⟨1, ![768]⟩
/-- The head layout [batch 4, head 16, position 2048, lane 48]. -/
abbrev SH : Shape := ⟨4, ![4, 16, 2048, 48]⟩

/-- The feature a (head, lane) pair is: `head * 48 + lane`. -/
def col (h : Fin 16) (d : Fin 48) : Fin 768 := ⟨h.val * 48 + d.val, by have := h.isLt; have := d.isLt; omega⟩
/-- A feature's head. -/
def hd (e : Fin 768) : Fin 16 := ⟨e.val / 48, by have := e.isLt; omega⟩
/-- A feature's lane. -/
def ln (e : Fin 768) : Fin 48 := ⟨e.val % 48, Nat.mod_lt _ (by decide)⟩

theorem col_hd_ln (e : Fin 768) : col (hd e) (ln e) = e := Fin.ext (by simp only [col, hd, ln]; omega)
theorem hd_col (h : Fin 16) (d : Fin 48) : hd (col h d) = h := Fin.ext (by simp only [col, hd]; have := d.isLt; omega)
theorem ln_col (h : Fin 16) (d : Fin 48) : ln (col h d) = d := Fin.ext (by simp only [col, ln]; have := d.isLt; omega)

/-- The score scale both programs spell as the same single-precision word (the one nearest 48^(-1/2)). -/
def scl : EReal := Ideal.ofBits .f32 0x3E13CD3A#32

/-- A linear projection read in the head layout: `∑ c, x[b, n, c] · w[h·48+d, c]`, plus the bias at `h·48+d`. -/
def projAt (x : FVec Ideal SX .f32) (w : FVec Ideal SW .f32) (bias : FVec Ideal SB .f32)
    (b : Fin 4) (h : Fin 16) (n : Fin 2048) (d : Fin 48) : EReal :=
  (∑ c : Fin 768, x (ix3 b n c) * w (ix2 (col h d) c)) + bias (ix1 (col h d))
def proj (x : FVec Ideal SX .f32) (w : FVec Ideal SW .f32) (bias : FVec Ideal SB .f32) : FVec Ideal SH .f32 :=
  fun i => projAt x w bias (i 0) (i 1) (i 2) (i 3)

/-- The scaled score of query position `n` against key position `j` of one (batch, head) pair. -/
def scoreAt (q k : FVec Ideal SH .f32) (b : Fin 4) (h : Fin 16) (n j : Fin 2048) : EReal :=
  (∑ d : Fin 48, q (ix4 b h n d) * k (ix4 b h j d)) * scl

/-- A row's maximum, as the fold of `max` from the bottom element. -/
def rowMax (s : Fin 2048 → EReal) : EReal := (Finset.univ : Finset (Fin 2048)).fold max ⊥ s

/-- The softmax of a row at one position: the exponential of the entry less the row's maximum, over the sum of
    those exponentials along the row. -/
def probAt (s : Fin 2048 → EReal) (j : Fin 2048) : EReal :=
  Ideal.div (Ideal.exp (s j - rowMax s)) (∑ i : Fin 2048, Ideal.exp (s i - rowMax s))

/-- The attention output in the head layout: the probabilities of row `n` weighting the values. -/
def attnAt (q k v : FVec Ideal SH .f32) (b : Fin 4) (h : Fin 16) (n : Fin 2048) (d : Fin 48) : EReal :=
  ∑ j : Fin 2048, probAt (fun i => scoreAt q k b h n i) j * v (ix4 b h j d)
def attn (q k v : FVec Ideal SH .f32) : FVec Ideal SH .f32 :=
  fun i => attnAt q k v (i 0) (i 1) (i 2) (i 3)

/-- The heads laid back side by side plus the input (the first residual sum). -/
def yAt (x : FVec Ideal SX .f32) (a : FVec Ideal SH .f32) (b : Fin 4) (n : Fin 2048) (e : Fin 768) : EReal :=
  a (ix4 b (hd e) n (ln e)) + x (ix3 b n e)

/-- The result: the fourth linear map of `y` with its bias, plus `y`, plus the input. -/
def outAt (x : FVec Ideal SX .f32) (a : FVec Ideal SH .f32) (wo : FVec Ideal SW .f32) (bo : FVec Ideal SB .f32)
    (b : Fin 4) (n : Fin 2048) (e : Fin 768) : EReal :=
  (((∑ c : Fin 768, yAt x a b n c * wo (ix2 e c)) + bo (ix1 e)) + yAt x a b n e) + x (ix3 b n e)
def out (x : FVec Ideal SX .f32) (a : FVec Ideal SH .f32) (wo : FVec Ideal SW .f32) (bo : FVec Ideal SB .f32) :
    FVec Ideal SX .f32 :=
  fun i => outAt x a wo bo (i 0) (i 1) (i 2)

/-- The whole function. -/
def final (x : FVec Ideal SX .f32) (wq : FVec Ideal SW .f32) (bq : FVec Ideal SB .f32) (wk : FVec Ideal SW .f32)
    (bk : FVec Ideal SB .f32) (wv : FVec Ideal SW .f32) (bv : FVec Ideal SB .f32) (wo : FVec Ideal SW .f32)
    (bo : FVec Ideal SB .f32) : FVec Ideal SX .f32 :=
  out x (attn (proj x wq bq) (proj x wk bk) (proj x wv bv)) wo bo

theorem proj_apply (x : FVec Ideal SX .f32) (w : FVec Ideal SW .f32) (bias : FVec Ideal SB .f32)
    (b : Fin 4) (h : Fin 16) (n : Fin 2048) (d : Fin 48) : proj x w bias (ix4 b h n d) = projAt x w bias b h n d := rfl
theorem attn_apply (q k v : FVec Ideal SH .f32) (b : Fin 4) (h : Fin 16) (n : Fin 2048) (d : Fin 48) :
    attn q k v (ix4 b h n d) = attnAt q k v b h n d := rfl
theorem out_apply (x : FVec Ideal SX .f32) (a : FVec Ideal SH .f32) (wo : FVec Ideal SW .f32) (bo : FVec Ideal SB .f32)
    (b : Fin 4) (n : Fin 2048) (e : Fin 768) : out x a wo bo (ix3 b n e) = outAt x a wo bo b n e := rfl

/-! ## The scale is a nonnegative real, so it distributes over sums -/

theorem scl_eq : ∃ r : ℝ, 0 ≤ r ∧ scl = (r : EReal) := by
  refine ⟨((1 : ℝ) * ((2 ^ 23 + 1297722 : ℕ) : ℝ) * (2 : ℝ) ^ ((124 : ℤ) - (2 ^ (8 - 1) - 1) - 23)), by positivity, ?_⟩
  simp [scl, Ideal.ofBits, Ideal.ieee]

theorem scl_nonneg : 0 ≤ scl := by
  obtain ⟨r, hr, e⟩ := scl_eq; rw [e]; exact_mod_cast hr
theorem scl_ne_top : scl ≠ ⊤ := by
  obtain ⟨r, _, e⟩ := scl_eq; rw [e]; exact EReal.coe_ne_top r

/-- A nonnegative real factor distributes over a finite sum of extended reals (at the infinities too). -/
theorem sum_mul_scl {ι : Type} (s : Finset ι) (f : ι → EReal) : (∑ i ∈ s, f i) * scl = ∑ i ∈ s, f i * scl := by
  classical
  induction s using Finset.induction_on with
  | empty => simp
  | insert a s ha ih =>
    rw [Finset.sum_insert ha, Finset.sum_insert ha, EReal.right_distrib_of_nonneg_of_ne_top scl_nonneg scl_ne_top, ih]

/-- Scaling the queries before the products is scaling the sum of the products. -/
theorem sum_scaled_mul {ι : Type} [Fintype ι] (q k : ι → EReal) :
    ∑ d : ι, (q d * scl) * k d = (∑ d : ι, q d * k d) * scl := by
  rw [sum_mul_scl]
  exact Finset.sum_congr rfl fun d _ => mul_right_comm _ _ _

end Attn

end
-- ==== Proof.KI.Val0.lean ====
/-
  The projection region's three output arrays. Grid point `t` handles batch `t / 4` and the 512 positions from
  `(t % 4) * 512`: its input block is those rows of the input array, the fused weight matrix and bias row are read
  whole at every point, and each of its three output blocks [1, 16, 512, 48] sits at block index
  (batch, 0, t % 4, 0) of its [4, 16, 2048, 48] array. What the point writes back to an output is therefore that
  block of the corresponding linear projection, read in the head layout; the sixteen blocks tile each array, which
  ends holding the specification's projection of the input array by that output's weights and bias.
-/
import proofs.«110986_j16475494547544_2_alg».proof.Proof.KI.Pay0
import proofs.«110986_j16475494547544_2_alg».proof.Proof.KI.Host0
import proofs.«110986_j16475494547544_2_alg».proof.Proof.Spec

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0_2 : (![0, 0] : Fin 2 → Nat) = fun _ => 0 := funext fun a => by fin_cases a <;> rfl
theorem hz0_3 : (![0, 0, 0] : Fin 3 → Nat) = fun _ => 0 := funext fun a => by fin_cases a <;> rfl
theorem hz0_4 : (![0, 0, 0, 0] : Fin 4 → Nat) = fun _ => 0 := funext fun a => by fin_cases a <;> rfl

/-- One entry of a projection in the head layout, from the blocks a point reads: if the input block is rows
    `q * 512 …` of batch `b` of `x`, and the fused matrix and bias row read at columns `o + e` are `w`'s row `e` and
    `bias` at `e`, then the block row `r` against fused column `o + head * 48 + lane`, plus the fused bias there, is the
    projection at (b, head, q * 512 + r, lane). -/
theorem proj_point (x : FVec Ideal Attn.SX .f32) (w : FVec Ideal Attn.SW .f32) (bias : FVec Ideal Attn.SB .f32)
    (x0 : FVec Ideal S1x512x768 .f32) (x1 : FVec Ideal S768x2304 .bf16) (x2 : FVec Ideal S1x2304 .f32)
    (o : Nat) (ho : o + 768 ≤ 2304) (b : Fin 4) (q : Nat) (hq : q < 4)
    (h0 : ∀ (r : Fin 512) (cc : Fin 768), x0 (ix3 (0 : Fin 1) r cc) = x (ix3 b (⟨q * 512 + r.val, by have := r.isLt; omega⟩ : Fin 2048) cc))
    (h1 : ∀ (cc e : Fin 768) (k : Fin 2304), k.val = o + e.val → x1 (ix2 cc k) = w (ix2 e cc))
    (h2 : ∀ (e : Fin 768) (k : Fin 2304), k.val = o + e.val → x2 (ix2 (0 : Fin 1) k) = bias (ix1 e))
    (h : Fin 16) (r : Fin 512) (d : Fin 48) (k : Fin 2304) (hk : k.val = o + (h.val * 48 + d.val)) :
    (∑ c : Fin 768, x0 (ix3 (0 : Fin 1) r c) * x1 (ix2 c k)) + x2 (ix2 (0 : Fin 1) k)
      = Attn.proj x w bias (ix4 b h (⟨q * 512 + r.val, by have := r.isLt; omega⟩ : Fin 2048) d) := by
  have hk' : k.val = o + (Attn.col h d).val := hk
  rw [Attn.proj_apply]
  unfold Attn.projAt
  rw [h2 (Attn.col h d) k hk']
  refine congrArg (· + bias (ix1 (Attn.col h d))) (Finset.sum_congr rfl fun c _ => ?_)
  rw [h0 r c, h1 c (Attn.col h d) k hk']

/-- Where each window's block sits at grid point `t`: the input window at block (t / 4, t % 4, 0), the fused
    weights and bias at block 0, each output window at block (t / 4, 0, t % 4, 0). -/
theorem idx_facts0 : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 4) = t.val / 4 ∧ win0_3.index t (1 : Fin 4) = 0 ∧ win0_3.index t (2 : Fin 4) = t.val % 4 ∧ win0_3.index t (3 : Fin 4) = 0)
    ∧ (win0_4.index t (0 : Fin 4) = t.val / 4 ∧ win0_4.index t (1 : Fin 4) = 0 ∧ win0_4.index t (2 : Fin 4) = t.val % 4 ∧ win0_4.index t (3 : Fin 4) = 0)
    ∧ (win0_5.index t (0 : Fin 4) = t.val / 4 ∧ win0_5.index t (1 : Fin 4) = 0 ∧ win0_5.index t (2 : Fin 4) = t.val % 4 ∧ win0_5.index t (3 : Fin 4) = 0) :=
  (by decide +kernel : ∀ t : Fin grid0.N, _)

/-- The input block at point `t`, read at (0, r, cc), is the input array at (t / 4, (t % 4) * 512 + r, cc). -/
theorem iblk0_0_apply (c : Dev nD) (t : Fin cfg0.N) (r : Fin 512) (cc : Fin 768) :
    (iblk0 V c 0 t : FVec Ideal S1x512x768 .f32) (ix3 (0 : Fin 1) r cc)
      = (V c main_arg0 : FVec Ideal S4x2048x768 .f32) (ix3 (⟨t.val / 4, by have := t.isLt; have : cfg0.N = 16 := N_0; omega⟩ : Fin 4) (⟨t.val % 4 * 512 + r.val, by have := r.isLt; omega⟩ : Fin 2048) cc) := by
  obtain ⟨⟨e0, e1, e2⟩, -, -, -, -, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 768 + 1 * cc.val = cc.val; omega

/-- The fused weights' block is the whole array at every point. -/
theorem iblk0_1_apply (c : Dev nD) (t : Fin cfg0.N) (cc : Fin 768) (k : Fin 2304) :
    (iblk0 V c 1 t : FVec Ideal S768x2304 .bf16) (ix2 cc k) = (V c main_v3 : FVec Ideal S768x2304 .bf16) (ix2 cc k) := by
  obtain ⟨-, ⟨e0, e1⟩, -, -, -, -⟩ := idx_facts0 t
  unfold iblk0
  rw [View.read_apply]
  show V c main_v3 _ = V c main_v3 _
  congr 1
  funext a
  apply Fin.ext
  match a with
  | ⟨0, _⟩ => show win0_1.index t (0 : Fin 2) * 768 + 1 * cc.val = cc.val; omega
  | ⟨1, _⟩ => show win0_1.index t (1 : Fin 2) * 2304 + 1 * k.val = k.val; omega

/-- So is the fused bias row's. -/
theorem iblk0_2_apply (c : Dev nD) (t : Fin cfg0.N) (k : Fin 2304) :
    (iblk0 V c 2 t : FVec Ideal S1x2304 .f32) (ix2 (0 : Fin 1) k) = (V c main_v4 : FVec Ideal S1x2304 .f32) (ix2 (0 : Fin 1) k) := by
  obtain ⟨-, -, ⟨e0, e1⟩, -, -, -⟩ := idx_facts0 t
  unfold iblk0
  rw [View.read_apply]
  show V c main_v4 _ = V c main_v4 _
  congr 1
  funext a
  apply Fin.ext
  match a with
  | ⟨0, _⟩ => show win0_2.index t (0 : Fin 2) * 1 + 1 * 0 = 0; omega
  | ⟨1, _⟩ => show win0_2.index t (1 : Fin 2) * 2304 + 1 * k.val = k.val; omega

/-- What point `t` writes back to the first output is its block of the projection of the input array by the weights
    and bias whose transposed, fused forms the region reads at column offset 0. -/
theorem flushed0_3_eq (c : Dev nD) (t : Fin cfg0.N) (w : FVec Ideal Attn.SW .f32) (bias : FVec Ideal Attn.SB .f32)
    (h1 : ∀ (cc e : Fin 768) (k : Fin 2304), k.val = 0 + e.val → (V c main_v3 : FVec Ideal S768x2304 .bf16) (ix2 cc k) = w (ix2 e cc))
    (h2 : ∀ (e : Fin 768) (k : Fin 2304), k.val = 0 + e.val → (V c main_v4 : FVec Ideal S1x2304 .f32) (ix2 (0 : Fin 1) k) = bias (ix1 e)) :
    (dat0 V c).flushed 3 t = ((cfg0.win 3).blk t).view.read (Elt Ideal)
      (Attn.proj (V c main_arg0 : FVec Ideal S4x2048x768 .f32) w bias) := by
  show (cfg0.win 3).cut (grid0.coords t) ((dat0 V c).after 3 t) = _
  rw [after0_3]
  unfold out0_3
  rw [View.canon_unit_zero hz0_4]
  simp only [View.ld_unit_zero (S := S1x512x768) hz0_3, View.ld_unit_zero (S := S768x2304) hz0_2, View.ld_unit_zero (S := S1x2304) hz0_2]
  funext j
  rw [View.read_apply]
  have hN : cfg0.N = 16 := N_0
  have b0 : (j 0).val < 1 := (j 0).isLt
  have b1 : (j 1).val < 16 := (j 1).isLt
  have b2 : (j 2).val < 512 := (j 2).isLt
  have b3 : (j 3).val < 48 := (j 3).isLt
  obtain ⟨-, -, -, ⟨e0, e1, e2, e3⟩, -, -⟩ := idx_facts0 t
  have hj : (j : S1x16x512x48.Idx) = ix4 (0 : Fin 1) (j 1) (j 2) (j 3) := by
    funext a
    apply Fin.ext
    match a with
    | ⟨0, _⟩ => show (j 0).val = 0; omega
    | ⟨1, _⟩ => rfl
    | ⟨2, _⟩ => rfl
    | ⟨3, _⟩ => rfl
  have hemb : ((cfg0.win 3).blk t).view.emb j
      = ix4 (⟨t.val / 4, by have := t.isLt; omega⟩ : Fin 4) (j 1) (⟨t.val % 4 * 512 + (j 2).val, by omega⟩ : Fin 2048) (j 3) := by
    funext a
    apply Fin.ext
    match a with
    | ⟨0, _⟩ => show win0_3.index t (0 : Fin 4) * 1 + 1 * (j 0).val = t.val / 4; omega
    | ⟨1, _⟩ => show win0_3.index t (1 : Fin 4) * 16 + 1 * (j 1).val = (j 1).val; omega
    | ⟨2, _⟩ => show win0_3.index t (2 : Fin 4) * 512 + 1 * (j 2).val = t.val % 4 * 512 + (j 2).val; omega
    | ⟨3, _⟩ => show win0_3.index t (3 : Fin 4) * 48 + 1 * (j 3).val = (j 3).val; omega
  rw [hemb]
  obtain ⟨k, hk⟩ : ∃ k : Fin 2304, k.val = 0 + ((j 1).val * 48 + (j 3).val) := ⟨⟨0 + ((j 1).val * 48 + (j 3).val), by omega⟩, rfl⟩
  refine Eq.trans (congrArg (k0_pay2 (F := Ideal) (iblk0 V c 0 t) (iblk0 V c 1 t) (iblk0 V c 2 t)) hj) ?_
  refine (pay0_2_apply (iblk0 V c 0 t) (iblk0 V c 1 t) (iblk0 V c 2 t) (0 : Fin 1) (j 1) (j 2) (j 3) k hk).trans ?_
  exact proj_point (V c main_arg0 : FVec Ideal S4x2048x768 .f32) w bias (iblk0 V c 0 t) (iblk0 V c 1 t) (iblk0 V c 2 t) 0 (by decide)
    (⟨t.val / 4, by have := t.isLt; omega⟩ : Fin 4) (t.val % 4) (by omega) (iblk0_0_apply V c t)
    (fun cc e k hk => (iblk0_1_apply V c t cc k).trans (h1 cc e k hk)) (fun e k hk => (iblk0_2_apply V c t k).trans (h2 e k hk))
    (j 1) (j 2) (j 3) k hk

/-- An index of the first output array is in point `t`'s block iff each coordinate is in the block's range on its axis. -/
theorem mem_blk0_3 (t : Fin cfg0.N) (i : S4x16x2048x48.Idx) :
    i ∈ ((cfg0.win 3).blk t).view.set ↔ ∀ a : Fin 4, win0_3.index t a * S1x16x512x48.size a ≤ (i a).val ∧ (i a).val < win0_3.index t a * S1x16x512x48.size a + S1x16x512x48.size a := by
  show i ∈ ((View.whole main_v5_0).slice (win0_3.rect t)).set ↔ _
  rw [View.set_slice_whole, Rect.mem_set_unit]
  exact Iff.rfl

/-- Every index of the first output array lies in the block of the point `batch * 4 + position / 512`. -/
theorem cover0_3 (i : S4x16x2048x48.Idx) : ∃ t : Fin cfg0.N, (cfg0.win 3).flush t = true ∧ i ∈ ((cfg0.win 3).blk t).view.set := by
  have hN : cfg0.N = 16 := N_0
  have h0 : (i 0).val < 4 := (i 0).isLt
  have h1 : (i 1).val < 16 := (i 1).isLt
  have h2 : (i 2).val < 2048 := (i 2).isLt
  have h3 : (i 3).val < 48 := (i 3).isLt
  obtain ⟨t, ht⟩ : ∃ t : Fin cfg0.N, t.val = (i 0).val * 4 + (i 2).val / 512 := ⟨⟨(i 0).val * 4 + (i 2).val / 512, by omega⟩, rfl⟩
  refine ⟨t, flush0_3 t, ?_⟩
  rw [mem_blk0_3]
  obtain ⟨-, -, -, ⟨e0, e1, e2, e3⟩, -, -⟩ := idx_facts0 t
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 48 ≤ (i 3).val ∧ (i 3).val < win0_3.index t (3 : Fin 4) * 48 + 48; omega

/-- The first output array after the region. -/
theorem arr0_3 (c : Dev nD) (w : FVec Ideal Attn.SW .f32) (bias : FVec Ideal Attn.SB .f32)
    (h1 : ∀ (cc e : Fin 768) (k : Fin 2304), k.val = 0 + e.val → (V c main_v3 : FVec Ideal S768x2304 .bf16) (ix2 cc k) = w (ix2 e cc))
    (h2 : ∀ (e : Fin 768) (k : Fin 2304), k.val = 0 + e.val → (V c main_v4 : FVec Ideal S1x2304 .f32) (ix2 (0 : Fin 1) k) = bias (ix1 e)) :
    (dat0 V c).arrAt 3 cfg0.N = Attn.proj (V c main_arg0 : FVec Ideal S4x2048x768 .f32) w bias :=
  (dat0 V c).arrAt_eq_of_cover 3 _ (fun t _ => flushed0_3_eq V c t w bias h1 h2) cover0_3

/-- What point `t` writes back to the second output is its block of the projection of the input array by the weights
    and bias whose transposed, fused forms the region reads at column offset 768. -/
theorem flushed0_4_eq (c : Dev nD) (t : Fin cfg0.N) (w : FVec Ideal Attn.SW .f32) (bias : FVec Ideal Attn.SB .f32)
    (h1 : ∀ (cc e : Fin 768) (k : Fin 2304), k.val = 768 + e.val → (V c main_v3 : FVec Ideal S768x2304 .bf16) (ix2 cc k) = w (ix2 e cc))
    (h2 : ∀ (e : Fin 768) (k : Fin 2304), k.val = 768 + e.val → (V c main_v4 : FVec Ideal S1x2304 .f32) (ix2 (0 : Fin 1) k) = bias (ix1 e)) :
    (dat0 V c).flushed 4 t = ((cfg0.win 4).blk t).view.read (Elt Ideal)
      (Attn.proj (V c main_arg0 : FVec Ideal S4x2048x768 .f32) w bias) := by
  show (cfg0.win 4).cut (grid0.coords t) ((dat0 V c).after 4 t) = _
  rw [after0_4]
  unfold out0_4
  rw [View.canon_unit_zero hz0_4]
  simp only [View.ld_unit_zero (S := S1x512x768) hz0_3, View.ld_unit_zero (S := S768x2304) hz0_2, View.ld_unit_zero (S := S1x2304) hz0_2]
  funext j
  rw [View.read_apply]
  have hN : cfg0.N = 16 := N_0
  have b0 : (j 0).val < 1 := (j 0).isLt
  have b1 : (j 1).val < 16 := (j 1).isLt
  have b2 : (j 2).val < 512 := (j 2).isLt
  have b3 : (j 3).val < 48 := (j 3).isLt
  obtain ⟨-, -, -, -, ⟨e0, e1, e2, e3⟩, -⟩ := idx_facts0 t
  have hj : (j : S1x16x512x48.Idx) = ix4 (0 : Fin 1) (j 1) (j 2) (j 3) := by
    funext a
    apply Fin.ext
    match a with
    | ⟨0, _⟩ => show (j 0).val = 0; omega
    | ⟨1, _⟩ => rfl
    | ⟨2, _⟩ => rfl
    | ⟨3, _⟩ => rfl
  have hemb : ((cfg0.win 4).blk t).view.emb j
      = ix4 (⟨t.val / 4, by have := t.isLt; omega⟩ : Fin 4) (j 1) (⟨t.val % 4 * 512 + (j 2).val, by omega⟩ : Fin 2048) (j 3) := by
    funext a
    apply Fin.ext
    match a with
    | ⟨0, _⟩ => show win0_4.index t (0 : Fin 4) * 1 + 1 * (j 0).val = t.val / 4; omega
    | ⟨1, _⟩ => show win0_4.index t (1 : Fin 4) * 16 + 1 * (j 1).val = (j 1).val; omega
    | ⟨2, _⟩ => show win0_4.index t (2 : Fin 4) * 512 + 1 * (j 2).val = t.val % 4 * 512 + (j 2).val; omega
    | ⟨3, _⟩ => show win0_4.index t (3 : Fin 4) * 48 + 1 * (j 3).val = (j 3).val; omega
  rw [hemb]
  obtain ⟨k, hk⟩ : ∃ k : Fin 2304, k.val = 768 + ((j 1).val * 48 + (j 3).val) := ⟨⟨768 + ((j 1).val * 48 + (j 3).val), by omega⟩, rfl⟩
  refine Eq.trans (congrArg (k0_pay3 (F := Ideal) (iblk0 V c 0 t) (iblk0 V c 1 t) (iblk0 V c 2 t)) hj) ?_
  refine (pay0_3_apply (iblk0 V c 0 t) (iblk0 V c 1 t) (iblk0 V c 2 t) (0 : Fin 1) (j 1) (j 2) (j 3) k hk).trans ?_
  exact proj_point (V c main_arg0 : FVec Ideal S4x2048x768 .f32) w bias (iblk0 V c 0 t) (iblk0 V c 1 t) (iblk0 V c 2 t) 768 (by decide)
    (⟨t.val / 4, by have := t.isLt; omega⟩ : Fin 4) (t.val % 4) (by omega) (iblk0_0_apply V c t)
    (fun cc e k hk => (iblk0_1_apply V c t cc k).trans (h1 cc e k hk)) (fun e k hk => (iblk0_2_apply V c t k).trans (h2 e k hk))
    (j 1) (j 2) (j 3) k hk

/-- An index of the second output array is in point `t`'s block iff each coordinate is in the block's range on its axis. -/
theorem mem_blk0_4 (t : Fin cfg0.N) (i : S4x16x2048x48.Idx) :
    i ∈ ((cfg0.win 4).blk t).view.set ↔ ∀ a : Fin 4, win0_4.index t a * S1x16x512x48.size a ≤ (i a).val ∧ (i a).val < win0_4.index t a * S1x16x512x48.size a + S1x16x512x48.size a := by
  show i ∈ ((View.whole main_v5_1).slice (win0_4.rect t)).set ↔ _
  rw [View.set_slice_whole, Rect.mem_set_unit]
  exact Iff.rfl

/-- Every index of the second output array lies in the block of the point `batch * 4 + position / 512`. -/
theorem cover0_4 (i : S4x16x2048x48.Idx) : ∃ t : Fin cfg0.N, (cfg0.win 4).flush t = true ∧ i ∈ ((cfg0.win 4).blk t).view.set := by
  have hN : cfg0.N = 16 := N_0
  have h0 : (i 0).val < 4 := (i 0).isLt
  have h1 : (i 1).val < 16 := (i 1).isLt
  have h2 : (i 2).val < 2048 := (i 2).isLt
  have h3 : (i 3).val < 48 := (i 3).isLt
  obtain ⟨t, ht⟩ : ∃ t : Fin cfg0.N, t.val = (i 0).val * 4 + (i 2).val / 512 := ⟨⟨(i 0).val * 4 + (i 2).val / 512, by omega⟩, rfl⟩
  refine ⟨t, flush0_4 t, ?_⟩
  rw [mem_blk0_4]
  obtain ⟨-, -, -, -, ⟨e0, e1, e2, e3⟩, -⟩ := idx_facts0 t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 48 ≤ (i 3).val ∧ (i 3).val < win0_4.index t (3 : Fin 4) * 48 + 48; omega

/-- The second output array after the region. -/
theorem arr0_4 (c : Dev nD) (w : FVec Ideal Attn.SW .f32) (bias : FVec Ideal Attn.SB .f32)
    (h1 : ∀ (cc e : Fin 768) (k : Fin 2304), k.val = 768 + e.val → (V c main_v3 : FVec Ideal S768x2304 .bf16) (ix2 cc k) = w (ix2 e cc))
    (h2 : ∀ (e : Fin 768) (k : Fin 2304), k.val = 768 + e.val → (V c main_v4 : FVec Ideal S1x2304 .f32) (ix2 (0 : Fin 1) k) = bias (ix1 e)) :
    (dat0 V c).arrAt 4 cfg0.N = Attn.proj (V c main_arg0 : FVec Ideal S4x2048x768 .f32) w bias :=
  (dat0 V c).arrAt_eq_of_cover 4 _ (fun t _ => flushed0_4_eq V c t w bias h1 h2) cover0_4

/-- What point `t` writes back to the third output is its block of the projection of the input array by the weights
    and bias whose transposed, fused forms the region reads at column offset 1536. -/
theorem flushed0_5_eq (c : Dev nD) (t : Fin cfg0.N) (w : FVec Ideal Attn.SW .f32) (bias : FVec Ideal Attn.SB .f32)
    (h1 : ∀ (cc e : Fin 768) (k : Fin 2304), k.val = 1536 + e.val → (V c main_v3 : FVec Ideal S768x2304 .bf16) (ix2 cc k) = w (ix2 e cc))
    (h2 : ∀ (e : Fin 768) (k : Fin 2304), k.val = 1536 + e.val → (V c main_v4 : FVec Ideal S1x2304 .f32) (ix2 (0 : Fin 1) k) = bias (ix1 e)) :
    (dat0 V c).flushed 5 t = ((cfg0.win 5).blk t).view.read (Elt Ideal)
      (Attn.proj (V c main_arg0 : FVec Ideal S4x2048x768 .f32) w bias) := by
  show (cfg0.win 5).cut (grid0.coords t) ((dat0 V c).after 5 t) = _
  rw [after0_5]
  unfold out0_5
  rw [View.canon_unit_zero hz0_4]
  simp only [View.ld_unit_zero (S := S1x512x768) hz0_3, View.ld_unit_zero (S := S768x2304) hz0_2, View.ld_unit_zero (S := S1x2304) hz0_2]
  funext j
  rw [View.read_apply]
  have hN : cfg0.N = 16 := N_0
  have b0 : (j 0).val < 1 := (j 0).isLt
  have b1 : (j 1).val < 16 := (j 1).isLt
  have b2 : (j 2).val < 512 := (j 2).isLt
  have b3 : (j 3).val < 48 := (j 3).isLt
  obtain ⟨-, -, -, -, -, ⟨e0, e1, e2, e3⟩⟩ := idx_facts0 t
  have hj : (j : S1x16x512x48.Idx) = ix4 (0 : Fin 1) (j 1) (j 2) (j 3) := by
    funext a
    apply Fin.ext
    match a with
    | ⟨0, _⟩ => show (j 0).val = 0; omega
    | ⟨1, _⟩ => rfl
    | ⟨2, _⟩ => rfl
    | ⟨3, _⟩ => rfl
  have hemb : ((cfg0.win 5).blk t).view.emb j
      = ix4 (⟨t.val / 4, by have := t.isLt; omega⟩ : Fin 4) (j 1) (⟨t.val % 4 * 512 + (j 2).val, by omega⟩ : Fin 2048) (j 3) := by
    funext a
    apply Fin.ext
    match a with
    | ⟨0, _⟩ => show win0_5.index t (0 : Fin 4) * 1 + 1 * (j 0).val = t.val / 4; omega
    | ⟨1, _⟩ => show win0_5.index t (1 : Fin 4) * 16 + 1 * (j 1).val = (j 1).val; omega
    | ⟨2, _⟩ => show win0_5.index t (2 : Fin 4) * 512 + 1 * (j 2).val = t.val % 4 * 512 + (j 2).val; omega
    | ⟨3, _⟩ => show win0_5.index t (3 : Fin 4) * 48 + 1 * (j 3).val = (j 3).val; omega
  rw [hemb]
  obtain ⟨k, hk⟩ : ∃ k : Fin 2304, k.val = 1536 + ((j 1).val * 48 + (j 3).val) := ⟨⟨1536 + ((j 1).val * 48 + (j 3).val), by omega⟩, rfl⟩
  refine Eq.trans (congrArg (k0_pay4 (F := Ideal) (iblk0 V c 0 t) (iblk0 V c 1 t) (iblk0 V c 2 t)) hj) ?_
  refine (pay0_4_apply (iblk0 V c 0 t) (iblk0 V c 1 t) (iblk0 V c 2 t) (0 : Fin 1) (j 1) (j 2) (j 3) k hk).trans ?_
  exact proj_point (V c main_arg0 : FVec Ideal S4x2048x768 .f32) w bias (iblk0 V c 0 t) (iblk0 V c 1 t) (iblk0 V c 2 t) 1536 (by decide)
    (⟨t.val / 4, by have := t.isLt; omega⟩ : Fin 4) (t.val % 4) (by omega) (iblk0_0_apply V c t)
    (fun cc e k hk => (iblk0_1_apply V c t cc k).trans (h1 cc e k hk)) (fun e k hk => (iblk0_2_apply V c t k).trans (h2 e k hk))
    (j 1) (j 2) (j 3) k hk

/-- An index of the third output array is in point `t`'s block iff each coordinate is in the block's range on its axis. -/
theorem mem_blk0_5 (t : Fin cfg0.N) (i : S4x16x2048x48.Idx) :
    i ∈ ((cfg0.win 5).blk t).view.set ↔ ∀ a : Fin 4, win0_5.index t a * S1x16x512x48.size a ≤ (i a).val ∧ (i a).val < win0_5.index t a * S1x16x512x48.size a + S1x16x512x48.size a := by
  show i ∈ ((View.whole main_v5_2).slice (win0_5.rect t)).set ↔ _
  rw [View.set_slice_whole, Rect.mem_set_unit]
  exact Iff.rfl

/-- Every index of the third output array lies in the block of the point `batch * 4 + position / 512`. -/
theorem cover0_5 (i : S4x16x2048x48.Idx) : ∃ t : Fin cfg0.N, (cfg0.win 5).flush t = true ∧ i ∈ ((cfg0.win 5).blk t).view.set := by
  have hN : cfg0.N = 16 := N_0
  have h0 : (i 0).val < 4 := (i 0).isLt
  have h1 : (i 1).val < 16 := (i 1).isLt
  have h2 : (i 2).val < 2048 := (i 2).isLt
  have h3 : (i 3).val < 48 := (i 3).isLt
  obtain ⟨t, ht⟩ : ∃ t : Fin cfg0.N, t.val = (i 0).val * 4 + (i 2).val / 512 := ⟨⟨(i 0).val * 4 + (i 2).val / 512, by omega⟩, rfl⟩
  refine ⟨t, flush0_5 t, ?_⟩
  rw [mem_blk0_5]
  obtain ⟨-, -, -, -, -, ⟨e0, e1, e2, e3⟩⟩ := idx_facts0 t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 48 ≤ (i 3).val ∧ (i 3).val < win0_5.index t (3 : Fin 4) * 48 + 48; omega

/-- The third output array after the region. -/
theorem arr0_5 (c : Dev nD) (w : FVec Ideal Attn.SW .f32) (bias : FVec Ideal Attn.SB .f32)
    (h1 : ∀ (cc e : Fin 768) (k : Fin 2304), k.val = 1536 + e.val → (V c main_v3 : FVec Ideal S768x2304 .bf16) (ix2 cc k) = w (ix2 e cc))
    (h2 : ∀ (e : Fin 768) (k : Fin 2304), k.val = 1536 + e.val → (V c main_v4 : FVec Ideal S1x2304 .f32) (ix2 (0 : Fin 1) k) = bias (ix1 e)) :
    (dat0 V c).arrAt 5 cfg0.N = Attn.proj (V c main_arg0 : FVec Ideal S4x2048x768 .f32) w bias :=
  (dat0 V c).arrAt_eq_of_cover 5 _ (fun t _ => flushed0_5_eq V c t w bias h1 h2) cover0_5

variable (m : (ℓ : Loc nD τ sig) → Buf (Elt Ideal) ℓ) (ρ : Dev nD → PrngReg)

/-- After the projection region its first output buffer holds the projection of the input by the first weights
    and bias of the launch. -/
theorem q_value (c : Dev nD) : W2 m ρ c (Proc.devRef .tc main_v5_0)
    = Attn.proj (m ((c : Thread nD τ).loc main_arg0)) (m ((c : Thread nD τ).loc main_arg1)) (m ((c : Thread nD τ).loc main_arg2)) := by
  refine (W2_arr m ρ c 3).trans ?_
  refine (arr0_3 (V1 m ρ) c (m ((c : Thread nD τ).loc main_arg1)) (m ((c : Thread nD τ).loc main_arg2))
    (fun cc e k hk => (congrFun (W1_v3 m ρ c) (ix2 cc k)).trans (fusedW_apply0 _ _ _ cc e k hk))
    (fun e k hk => (congrFun (W1_v4 m ρ c) (ix2 (0 : Fin 1) k)).trans (fusedB_apply0 _ _ _ e k hk))).trans ?_
  exact congrArg (fun x => Attn.proj x (m ((c : Thread nD τ).loc main_arg1)) (m ((c : Thread nD τ).loc main_arg2))) (W1_arg0 m ρ c)

/-- Its second, by the second weights and bias. -/
theorem k_value (c : Dev nD) : W2 m ρ c (Proc.devRef .tc main_v5_1)
    = Attn.proj (m ((c : Thread nD τ).loc main_arg0)) (m ((c : Thread nD τ).loc main_arg3)) (m ((c : Thread nD τ).loc main_arg4)) := by
  refine (W2_arr m ρ c 4).trans ?_
  refine (arr0_4 (V1 m ρ) c (m ((c : Thread nD τ).loc main_arg3)) (m ((c : Thread nD τ).loc main_arg4))
    (fun cc e k hk => (congrFun (W1_v3 m ρ c) (ix2 cc k)).trans (fusedW_apply1 _ _ _ cc e k hk))
    (fun e k hk => (congrFun (W1_v4 m ρ c) (ix2 (0 : Fin 1) k)).trans (fusedB_apply1 _ _ _ e k hk))).trans ?_
  exact congrArg (fun x => Attn.proj x (m ((c : Thread nD τ).loc main_arg3)) (m ((c : Thread nD τ).loc main_arg4))) (W1_arg0 m ρ c)

/-- Its third, by the third weights and bias. -/
theorem v_value (c : Dev nD) : W2 m ρ c (Proc.devRef .tc main_v5_2)
    = Attn.proj (m ((c : Thread nD τ).loc main_arg0)) (m ((c : Thread nD τ).loc main_arg5)) (m ((c : Thread nD τ).loc main_arg6)) := by
  refine (W2_arr m ρ c 5).trans ?_
  refine (arr0_5 (V1 m ρ) c (m ((c : Thread nD τ).loc main_arg5)) (m ((c : Thread nD τ).loc main_arg6))
    (fun cc e k hk => (congrFun (W1_v3 m ρ c) (ix2 cc k)).trans (fusedW_apply2 _ _ _ cc e k hk))
    (fun e k hk => (congrFun (W1_v4 m ρ c) (ix2 (0 : Fin 1) k)).trans (fusedB_apply2 _ _ _ e k hk))).trans ?_
  exact congrArg (fun x => Attn.proj x (m ((c : Thread nD τ).loc main_arg5)) (m ((c : Thread nD τ).loc main_arg6))) (W1_arg0 m ρ c)

end Cert.KernelIdeal.Fr

end
-- ==== Proof.KI.Pay2.lean ====
/-
  The output-projection body's one stored value, read at an index. For one block of 512 positions the body lays
  the sixteen heads of the attention output back side by side (feature c is lane c % 48 of head c / 48), adds the
  input block, multiplies the sum with the output weight, adds the bias row, and adds that sum and the input once
  more each. Read entry by entry at the ideal values this is the specification's last stage on the block.
-/
import proofs.«110986_j16475494547544_2_alg».proof.Proof.Gen.KernelIdeal.Skeleton
import proofs.«110986_j16475494547544_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Fr

open Cert.KernelIdeal Cert.KernelIdeal.Gen
open Idealize.ShloMosaic Idealize.ShloMosaic.ValueIdx

/-- The dimension numbers of the product with the output weight. -/
abbrev dOut : DotDims S512x768 S768x768 S512x768 := dot_S512x768_S768x768_S512x768_1_0_0_1_n_n

/-! ## The layout steps at an index -/

/-- The head axis moved behind the position axis. -/
theorem heads2_transpose_apply (x : FVec Ideal S16x512x48 .bf16) (h : S16x512x48.Transposes [1, 0, 2] S512x16x48)
    (r : Fin 512) (hd : Fin 16) (d : Fin 48) :
    transpose S512x16x48 [1, 0, 2] x h (ix3 r hd d) = x (ix3 hd r d) :=
  transpose_apply [1, 0, 2] x h _ _ (fun b => by
    match b with
    | ⟨0, _⟩ => rfl
    | ⟨1, _⟩ => rfl
    | ⟨2, _⟩ => rfl)

/-- The heads laid side by side: feature c of a [512, 768] row is lane c % 48 of head c / 48. -/
theorem heads2_cast_apply (x : FVec Ideal S512x16x48 .bf16) (h : S512x16x48.ShapeCasts S512x768) (r : Fin 512) (c : Fin 768) :
    shapeCast S512x768 x h (ix2 r c) = x (ix3 r (Attn.hd c) (Attn.ln c)) :=
  shapeCast_apply x h _ _ (by
    rw [Shape.rowMajor_val_three, Shape.rowMajor_val_two]
    show (r.val * 16 + c.val / 48) * 48 + c.val % 48 = r.val * 768 + c.val
    omega)

/-! ## The product at an entry -/

theorem dot2_lhs_0 (i : S512x768.Idx) (q : dOut.contr.Idx) : (dOut.lhsIdx i q 0).val = (i 0).val := by
  unfold DotDims.lhsIdx
  rw [dif_neg (show ¬(0 : Fin S512x768.rank) ∈ dOut.lhsBatch by decide), dif_pos (show (0 : Fin S512x768.rank) ∈ dOut.lhsNonContracting by decide)]
  rfl
theorem dot2_lhs_1 (i : S512x768.Idx) (q : dOut.contr.Idx) : (dOut.lhsIdx i q 1).val = (q ⟨0, by decide⟩).val :=
  dOut.lhsIdx_val_of_single rfl i q
theorem dot2_rhs_0 (i : S512x768.Idx) (q : dOut.contr.Idx) : (dOut.rhsIdx i q 0).val = (q ⟨0, by decide⟩).val :=
  dOut.rhsIdx_val_of_single rfl i q
theorem dot2_rhs_1 (i : S512x768.Idx) (q : dOut.contr.Idx) : (dOut.rhsIdx i q 1).val = (i 1).val := by
  unfold DotDims.rhsIdx
  rw [dif_neg (show ¬(1 : Fin S768x768.rank) ∈ dOut.rhsBatch by decide), dif_pos (show (1 : Fin S768x768.rank) ∈ dOut.rhsNonContracting by decide)]
  rfl

theorem mm2_apply (l : FVec Ideal S512x768 .bf16) (w : FVec Ideal S768x768 .bf16) (r : Fin 512) (e : Fin 768) :
    matmul (F := Ideal) dOut none l w (constant (F := Ideal) S512x768 .f32 0x00000000#32) (ix2 r e)
      = ∑ c : Fin 768, l (ix2 r c) * w (ix2 c e) := by
  simp only [matmul]
  rw [Ideal.matmul_constant_zero_apply, ← Equiv.sum_comp (contrEquiv1 dOut 768 rfl rfl).symm]
  refine Finset.sum_congr rfl fun c _ => ?_
  have hk := contrEquiv1_symm_val dOut 768 rfl rfl c
  have el : dOut.lhsIdx (ix2 r e) ((contrEquiv1 dOut 768 rfl rfl).symm c) = ix2 r c := funext fun a => Fin.ext (by
    match a with
    | ⟨0, _⟩ => exact dot2_lhs_0 _ _
    | ⟨1, _⟩ => exact (dot2_lhs_1 _ _).trans hk)
  have er : dOut.rhsIdx (ix2 r e) ((contrEquiv1 dOut 768 rfl rfl).symm c) = ix2 c e := funext fun a => Fin.ext (by
    match a with
    | ⟨0, _⟩ => exact (dot2_rhs_0 _ _).trans hk
    | ⟨1, _⟩ => exact dot2_rhs_1 _ _)
  rw [el, er]

/-! ## The heads side by side plus the input -/

/-- The first residual sum on the block, as the body forms it. -/
def yK2 (x0 : FVec Ideal S1x512x768 .f32) (x1 : FVec Ideal S1x16x512x48 .bf16) : FVec Ideal S512x768 .f32 :=
  addf
    (extf .f32 (shapeCast S512x768 (transpose S512x16x48 [1, 0, 2] (shapeCast S16x512x48 x1 shapeCasts_S1x16x512x48_S16x512x48)
      transposes_S16x512x48_p1_0_2_S512x16x48) shapeCasts_S512x16x48_S512x768) bitsLt_bf16_f32)
    (shapeCast S512x768 x0 shapeCasts_S1x512x768_S512x768)

theorem yK2_apply (x0 : FVec Ideal S1x512x768 .f32) (x1 : FVec Ideal S1x16x512x48 .bf16) (r : Fin 512) (c : Fin 768) :
    yK2 x0 x1 (ix2 r c) = x1 (ix4 (0 : Fin 1) (Attn.hd c) r (Attn.ln c)) + x0 (ix3 (0 : Fin 1) r c) := by
  unfold yK2
  refine (addf_apply _ _ _).trans ?_
  refine congrArg₂ (· + ·) ?_ (shapeCast_1ab_ab_apply x0 _ r c)
  refine (extf_apply (φ := .bf16) (ψ := .f32) _ bitsLt_bf16_f32 (ix2 r c)).trans ?_
  refine (heads2_cast_apply _ _ r c).trans ?_
  refine (heads2_transpose_apply _ _ r (Attn.hd c) (Attn.ln c)).trans ?_
  exact shapeCast_1abc_abc_apply x1 _ (Attn.hd c) r (Attn.ln c)

/-! ## The stored value -/

theorem pay2_eq (x0 : FVec Ideal S1x512x768 .f32) (x1 : FVec Ideal S1x16x512x48 .bf16) (x2 : FVec Ideal S768x768 .bf16)
    (x3 : FVec Ideal S1x768 .f32) :
    k2_pay1 (F := Ideal) x0 x1 x2 x3
      = shapeCast S1x512x768
          (addf (addf (addf
            (matmul (F := Ideal) dOut none (truncf .bf16 (yK2 x0 x1) bitsLt_bf16_f32) (shapeCast S768x768 x2 shapeCasts_S768x768_S768x768)
              (constant (F := Ideal) S512x768 .f32 0x00000000#32))
            (broadcastTo S512x768 (shapeCast S1x768 x3 shapeCasts_S1x768_S1x768) broadcasts_S1x768_S512x768))
            (yK2 x0 x1))
            (shapeCast S512x768 x0 shapeCasts_S1x512x768_S512x768))
          shapeCasts_S512x768_S1x512x768 := rfl

/-- The result block at position `r`, feature `e`, from the input block, the attention block, the output weight
    and the bias row. -/
theorem pay2_apply (x0 : FVec Ideal S1x512x768 .f32) (x1 : FVec Ideal S1x16x512x48 .bf16) (x2 : FVec Ideal S768x768 .bf16)
    (x3 : FVec Ideal S1x768 .f32) (r : Fin 512) (e : Fin 768) :
    k2_pay1 (F := Ideal) x0 x1 x2 x3 (ix3 (0 : Fin 1) r e)
      = (((∑ c : Fin 768, (x1 (ix4 (0 : Fin 1) (Attn.hd c) r (Attn.ln c)) + x0 (ix3 (0 : Fin 1) r c)) * x2 (ix2 c e))
            + x3 (ix2 (0 : Fin 1) e))
          + (x1 (ix4 (0 : Fin 1) (Attn.hd e) r (Attn.ln e)) + x0 (ix3 (0 : Fin 1) r e))) + x0 (ix3 (0 : Fin 1) r e) := by
  rw [pay2_eq]
  refine (shapeCast_ab_1ab_apply _ _ (0 : Fin 1) r e).trans ?_
  refine (addf_apply _ _ _).trans ?_
  refine congrArg₂ (· + ·) ?_ (shapeCast_1ab_ab_apply x0 _ r e)
  refine (addf_apply _ _ _).trans ?_
  refine congrArg₂ (· + ·) ?_ (yK2_apply x0 x1 r e)
  refine (addf_apply _ _ _).trans ?_
  refine congrArg₂ (· + ·) ?_ ?_
  · refine (mm2_apply _ _ r e).trans ?_
    refine Finset.sum_congr rfl fun c _ => ?_
    rw [shapeCast_self]
    refine congrArg (· * _) ?_
    exact (truncf_apply (φ := .f32) (ψ := .bf16) (yK2 x0 x1) bitsLt_bf16_f32 (ix2 r c)).trans (yK2_apply x0 x1 r c)
  · refine (broadcastTo_1b_ab_apply _ _ r e).trans ?_
    rw [shapeCast_self]

end Cert.KernelIdeal.Fr

end
-- ==== Proof.KI.Val2.lean ====
/-
  The output region's array. Grid point `t` handles batch `t / 4` and row block `t % 4` (512 positions): the input
  window and the output window have the block [1, 512, 768] at block index (batch, row block, 0), the attention window
  the block [1, 16, 512, 48] at (batch, 0, row block, 0), and the weight and bias windows are their whole buffers. So the
  point writes back the result for that batch's 512 positions, computed from the same positions of the input and
  attention arrays; the 16 blocks tile the [4, 2048, 768] array, which therefore ends holding the specification's result
  function of the two arrays the region found and of the weight and bias its two whole windows hold.
-/
import proofs.«110986_j16475494547544_2_alg».proof.Proof.KI.Pay2
import proofs.«110986_j16475494547544_2_alg».proof.Proof.KI.Vals

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem val2_hz2 : (![0, 0] : Fin 2 → Nat) = fun _ => 0 := funext fun a => by fin_cases a <;> rfl
theorem val2_hz3 : (![0, 0, 0] : Fin 3 → Nat) = fun _ => 0 := funext fun a => by fin_cases a <;> rfl
theorem val2_hz4 : (![0, 0, 0, 0] : Fin 4 → Nat) = fun _ => 0 := funext fun a => by fin_cases a <;> rfl

/-- One (batch, row block) pair: if the input block and the attention block are that pair's slices of `x` and `a` (row
    `r` of the block being position `pos r` of the array), the weight block is `wo` transposed and the bias block is
    `bo`, the stored value is that pair's slice of the result. -/
theorem block_value2 (x : FVec Ideal Attn.SX .f32) (a : FVec Ideal Attn.SH .f32) (wo : FVec Ideal Attn.SW .f32) (bo : FVec Ideal Attn.SB .f32)
    (x0 : FVec Ideal S1x512x768 .f32) (x1 : FVec Ideal S1x16x512x48 .bf16) (x2 : FVec Ideal S768x768 .bf16) (x3 : FVec Ideal S1x768 .f32)
    (b : Fin 4) (pos : Fin 512 → Fin 2048)
    (h0 : ∀ (r : Fin 512) (e : Fin 768), x0 (ix3 (0 : Fin 1) r e) = x (ix3 b (pos r) e))
    (h1 : ∀ (h : Fin 16) (r : Fin 512) (d : Fin 48), x1 (ix4 (0 : Fin 1) h r d) = a (ix4 b h (pos r) d))
    (h2 : ∀ cc e : Fin 768, x2 (ix2 cc e) = wo (ix2 e cc))
    (h3 : ∀ e : Fin 768, x3 (ix2 (0 : Fin 1) e) = bo (ix1 e))
    (r : Fin 512) (e : Fin 768) :
    k2_pay1 (F := Ideal) x0 x1 x2 x3 (ix3 (0 : Fin 1) r e) = Attn.out x a wo bo (ix3 b (pos r) e) := by
  rw [pay2_apply, Attn.out_apply]
  unfold Attn.outAt Attn.yAt
  simp only [h0, h1, h2, h3]

/-- The windows' index maps, decided over the grid: the input, the output and the attention windows sit at batch
    `t / 4` and row block `t % 4`; the weight and the bias windows are whole. -/
theorem idx_facts2 : ∀ t : Fin cfg2.N,
    (win2_4.index t (0 : Fin 3) = t.val / 4 ∧ win2_4.index t (1 : Fin 3) = t.val % 4 ∧ win2_4.index t (2 : Fin 3) = 0)
    ∧ (win2_0.index t (0 : Fin 3) = t.val / 4 ∧ win2_0.index t (1 : Fin 3) = t.val % 4 ∧ win2_0.index t (2 : Fin 3) = 0)
    ∧ (win2_1.index t (0 : Fin 4) = t.val / 4 ∧ win2_1.index t (1 : Fin 4) = 0 ∧ win2_1.index t (2 : Fin 4) = t.val % 4 ∧ win2_1.index t (3 : Fin 4) = 0)
    ∧ (win2_2.index t (0 : Fin 2) = 0 ∧ win2_2.index t (1 : Fin 2) = 0)
    ∧ (win2_3.index t (0 : Fin 2) = 0 ∧ win2_3.index t (1 : Fin 2) = 0) :=
  (by decide +kernel : ∀ t : Fin grid2.N, _)

/-- Point `t`'s batch. -/
def bat2 (t : Fin cfg2.N) : Fin 4 := ⟨t.val / 4, by have := t.isLt; have : cfg2.N = 16 := N_2; omega⟩
/-- Row `r` of point `t`'s row block is this position of the array. -/
def pos2 (t : Fin cfg2.N) (r : Fin 512) : Fin 2048 :=
  ⟨(t.val % 4) * 512 + r.val, by have := r.isLt; have := Nat.mod_lt t.val (show 0 < 4 by decide); omega⟩

/-- The input window's block at point `t`, read at (0, r, e), is the input array at (t / 4, (t % 4) · 512 + r, e). -/
theorem iblk2_0_apply (c : Dev nD) (t : Fin cfg2.N) (r : Fin 512) (e : Fin 768) :
    (iblk2 V c 0 t : FVec Ideal S1x512x768 .f32) (ix3 (0 : Fin 1) r e)
      = (V c main_arg0 : FVec Ideal S4x2048x768 .f32) (ix3 (bat2 t) (pos2 t r) e) := by
  obtain ⟨-, ⟨e0, e1, e2⟩, -, -, -⟩ := idx_facts2 t
  unfold iblk2
  rw [View.read_apply]
  show V c main_arg0 _ = V c main_arg0 _
  congr 1
  funext a
  apply Fin.ext
  match a with
  | ⟨0, _⟩ => show win2_0.index t (0 : Fin 3) * 1 + 1 * 0 = t.val / 4; omega
  | ⟨1, _⟩ => show win2_0.index t (1 : Fin 3) * 512 + 1 * r.val = (t.val % 4) * 512 + r.val; omega
  | ⟨2, _⟩ => show win2_0.index t (2 : Fin 3) * 768 + 1 * e.val = e.val; omega
/-- The attention window's block at point `t`, read at (0, h, r, d), is the attention array at
    (t / 4, h, (t % 4) · 512 + r, d). -/
theorem iblk2_1_apply (c : Dev nD) (t : Fin cfg2.N) (h : Fin 16) (r : Fin 512) (d : Fin 48) :
    (iblk2 V c 1 t : FVec Ideal S1x16x512x48 .bf16) (ix4 (0 : Fin 1) h r d)
      = (V c main_v6 : FVec Ideal S4x16x2048x48 .bf16) (ix4 (bat2 t) h (pos2 t r) d) := by
  obtain ⟨-, -, ⟨e0, e1, e2, e3⟩, -, -⟩ := idx_facts2 t
  unfold iblk2
  rw [View.read_apply]
  show V c main_v6 _ = V c main_v6 _
  congr 1
  funext a
  apply Fin.ext
  match a with
  | ⟨0, _⟩ => show win2_1.index t (0 : Fin 4) * 1 + 1 * 0 = t.val / 4; omega
  | ⟨1, _⟩ => show win2_1.index t (1 : Fin 4) * 16 + 1 * h.val = h.val; omega
  | ⟨2, _⟩ => show win2_1.index t (2 : Fin 4) * 512 + 1 * r.val = (t.val % 4) * 512 + r.val; omega
  | ⟨3, _⟩ => show win2_1.index t (3 : Fin 4) * 48 + 1 * d.val = d.val; omega
/-- The weight window's block is the whole weight buffer at every point. -/
theorem iblk2_2_apply (c : Dev nD) (t : Fin cfg2.N) (cc e : Fin 768) :
    (iblk2 V c 2 t : FVec Ideal S768x768 .bf16) (ix2 cc e) = (V c main_v8 : FVec Ideal S768x768 .bf16) (ix2 cc e) := by
  obtain ⟨-, -, -, ⟨e0, e1⟩, -⟩ := idx_facts2 t
  unfold iblk2
  rw [View.read_apply]
  show V c main_v8 _ = V c main_v8 _
  congr 1
  funext a
  apply Fin.ext
  match a with
  | ⟨0, _⟩ => show win2_2.index t (0 : Fin 2) * 768 + 1 * cc.val = cc.val; omega
  | ⟨1, _⟩ => show win2_2.index t (1 : Fin 2) * 768 + 1 * e.val = e.val; omega
/-- The bias window's block is the whole bias buffer at every point. -/
theorem iblk2_3_apply (c : Dev nD) (t : Fin cfg2.N) (e : Fin 768) :
    (iblk2 V c 3 t : FVec Ideal S1x768 .f32) (ix2 (0 : Fin 1) e) = (V c main_v9 : FVec Ideal S1x768 .f32) (ix2 (0 : Fin 1) e) := by
  obtain ⟨-, -, -, -, ⟨e0, e1⟩⟩ := idx_facts2 t
  unfold iblk2
  rw [View.read_apply]
  show V c main_v9 _ = V c main_v9 _
  congr 1
  funext a
  apply Fin.ext
  match a with
  | ⟨0, _⟩ => show win2_3.index t (0 : Fin 2) * 1 + 1 * 0 = 0; omega
  | ⟨1, _⟩ => show win2_3.index t (1 : Fin 2) * 768 + 1 * e.val = e.val; omega

/-- What point `t` writes back is its block of the result function of the input and attention arrays the region found,
    when the weight buffer holds `wo` transposed and the bias buffer holds `bo`. -/
theorem flushed2_eq (c : Dev nD) (wo : FVec Ideal Attn.SW .f32) (bo : FVec Ideal Attn.SB .f32)
    (hw : ∀ cc e : Fin 768, (V c main_v8 : FVec Ideal S768x768 .bf16) (ix2 cc e) = wo (ix2 e cc))
    (hb : ∀ e : Fin 768, (V c main_v9 : FVec Ideal S1x768 .f32) (ix2 (0 : Fin 1) e) = bo (ix1 e)) (t : Fin cfg2.N) :
    (dat2 V c).flushed 4 t = ((cfg2.win 4).blk t).view.read (Elt Ideal)
      (Attn.out (V c main_arg0 : FVec Ideal S4x2048x768 .f32) (V c main_v6 : FVec Ideal S4x16x2048x48 .bf16) wo bo) := by
  show (cfg2.win 4).cut (grid2.coords t) ((dat2 V c).after 4 t) = _
  rw [after2_4]
  unfold out2_4
  rw [View.canon_unit_zero val2_hz3]
  simp only [View.ld_unit_zero (S := S1x512x768) val2_hz3, View.ld_unit_zero (S := S1x16x512x48) val2_hz4,
    View.ld_unit_zero (S := S768x768) val2_hz2, View.ld_unit_zero (S := S1x768) val2_hz2]
  funext j
  rw [View.read_apply]
  obtain ⟨⟨e0, e1, e2⟩, -, -, -, -⟩ := idx_facts2 t
  have hj : (j : S1x512x768.Idx) = ix3 (0 : Fin 1) (j 1) (j 2) := by
    funext a
    apply Fin.ext
    match a with
    | ⟨0, _⟩ => show (j 0).val = 0; have h0 : (j 0).val < 1 := (j 0).isLt; omega
    | ⟨1, _⟩ => rfl
    | ⟨2, _⟩ => rfl
  have hemb : ((cfg2.win 4).blk t).view.emb j = ix3 (bat2 t) (pos2 t (j 1)) (j 2) := by
    funext a
    apply Fin.ext
    match a with
    | ⟨0, _⟩ => show win2_4.index t (0 : Fin 3) * 1 + 1 * (j 0).val = t.val / 4; have h0 : (j 0).val < 1 := (j 0).isLt; omega
    | ⟨1, _⟩ => show win2_4.index t (1 : Fin 3) * 512 + 1 * (j 1).val = (t.val % 4) * 512 + (j 1).val; omega
    | ⟨2, _⟩ => show win2_4.index t (2 : Fin 3) * 768 + 1 * (j 2).val = (j 2).val; omega
  rw [hemb]
  refine Eq.trans (congrArg (k2_pay1 (F := Ideal) (iblk2 V c 0 t) (iblk2 V c 1 t) (iblk2 V c 2 t) (iblk2 V c 3 t)) hj) ?_
  exact block_value2 _ _ wo bo _ _ _ _ (bat2 t) (pos2 t) (iblk2_0_apply V c t) (iblk2_1_apply V c t)
    (fun cc e => (iblk2_2_apply V c t cc e).trans (hw cc e)) (fun e => (iblk2_3_apply V c t e).trans (hb e)) (j 1) (j 2)

/-- An index of the array is in point `t`'s block iff each coordinate is in the block's range on its axis. -/
theorem mem_blk2 (t : Fin cfg2.N) (i : S4x2048x768.Idx) :
    i ∈ ((cfg2.win 4).blk t).view.set ↔ ∀ a : Fin 3, win2_4.index t a * S1x512x768.size a ≤ (i a).val ∧ (i a).val < win2_4.index t a * S1x512x768.size a + S1x512x768.size a := by
  show i ∈ ((View.whole main_v10).slice (win2_4.rect t)).set ↔ _
  rw [View.set_slice_whole, Rect.mem_set_unit]
  exact Iff.rfl

/-- Every index of the array lies in the block of the point `batch * 4 + position / 512`. -/
theorem cover2 (i : S4x2048x768.Idx) : ∃ t : Fin cfg2.N, (cfg2.win 4).flush t = true ∧ i ∈ ((cfg2.win 4).blk t).view.set := by
  have hN : cfg2.N = 16 := N_2
  have h0 : (i 0).val < 4 := (i 0).isLt
  have h1 : (i 1).val < 2048 := (i 1).isLt
  have h2 : (i 2).val < 768 := (i 2).isLt
  obtain ⟨t, ht⟩ : ∃ t : Fin cfg2.N, t.val = (i 0).val * 4 + (i 1).val / 512 := ⟨⟨(i 0).val * 4 + (i 1).val / 512, by omega⟩, rfl⟩
  refine ⟨t, flush2_4 t, ?_⟩
  rw [mem_blk2]
  obtain ⟨⟨e0, e1, e2⟩, -, -, -, -⟩ := idx_facts2 t
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 512 ≤ (i 1).val ∧ (i 1).val < win2_4.index t (1 : Fin 3) * 512 + 512; omega
  | ⟨2, _⟩ => show win2_4.index t (2 : Fin 3) * 768 ≤ (i 2).val ∧ (i 2).val < win2_4.index t (2 : Fin 3) * 768 + 768; omega

/-- The region's output array after the run: the result function of the input array and the attention array the region
    found, of the weight the weight buffer holds transposed and of the bias the bias buffer holds. -/
theorem arr2_4 (c : Dev nD)
    (wo : FVec Ideal Attn.SW .f32) (bo : FVec Ideal Attn.SB .f32)
    (hw : ∀ cc e : Fin 768, (V c main_v8 : FVec Ideal S768x768 .bf16) (ix2 cc e) = wo (ix2 e cc))
    (hb : ∀ e : Fin 768, (V c main_v9 : FVec Ideal S1x768 .f32) (ix2 (0 : Fin 1) e) = bo (ix1 e)) :
    (dat2 V c).arrAt 4 cfg2.N = Attn.out (V c main_arg0 : FVec Ideal S4x2048x768 .f32) (V c main_v6 : FVec Ideal S4x16x2048x48 .bf16) wo bo :=
  (dat2 V c).arrAt_eq_of_cover 4 _ (fun t _ => flushed2_eq V c wo bo hw hb t) cover2

end Cert.KernelIdeal.Fr

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.KI.Pay1.lean ====
/-
  The attention body's one stored value, read at an index. For one (batch, head) pair the body holds the
  query, key and value blocks as [2048, 48] matrices; it scales the queries, multiplies them with the transposed
  keys into the [2048, 2048] score matrix, subtracts each row's maximum, exponentiates, divides by the row's
  sum, and multiplies the probabilities with the values. Read entry by entry at the ideal values this is the
  softmax-weighted sum of the specification: scaling the queries before the products is scaling the sum of the
  products, because the scale is a nonnegative real.
-/
import proofs.«110986_j16475494547544_2_alg».proof.Proof.Gen.KernelIdeal.Skeleton
import proofs.«110986_j16475494547544_2_alg».proof.Proof.Spec
import proofs.«110986_j16475494547544_2_alg».proof.Proof.LibKeepDims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Fr

open Cert.KernelIdeal Cert.KernelIdeal.Gen
open Idealize.ShloMosaic Idealize.ShloMosaic.ValueIdx Idealize.ShloMosaic.KeepDims

/-- The dimension numbers of the two products: queries times transposed keys, probabilities times values. -/
abbrev dQK : DotDims S2048x48 S48x2048 S2048x2048 := dot_S2048x48_S48x2048_S2048x2048_1_0_0_1_n_n
abbrev dPV : DotDims S2048x2048 S2048x48 S2048x48 := dot_S2048x2048_S2048x48_S2048x48_1_0_0_1_n_n

/-! ## The layout steps at an index -/

/-- A [1, 1, 2048, 48] block seen as a [2048, 48] matrix. -/
theorem cast_in_apply (x : FVec Ideal S1x1x2048x48 .bf16) (h : S1x1x2048x48.ShapeCasts S2048x48) (n : Fin 2048) (d : Fin 48) :
    shapeCast S2048x48 x h (ix2 n d) = x (ix4 (0 : Fin 1) (0 : Fin 1) n d) :=
  shapeCast_apply x h _ _ (by
    rw [Shape.rowMajor_val_four, Shape.rowMajor_val_two]
    show (((0 * 1 + 0) * 2048 + n.val) * 48 + d.val) = n.val * 48 + d.val
    simp only [Nat.zero_mul, Nat.zero_add])

/-- A [2048, 48] matrix seen as a [1, 1, 2048, 48] block. -/
theorem cast_out_apply (y : FVec Ideal S2048x48 .bf16) (h : S2048x48.ShapeCasts S1x1x2048x48) (n : Fin 2048) (d : Fin 48) :
    shapeCast S1x1x2048x48 y h (ix4 (0 : Fin 1) (0 : Fin 1) n d) = y (ix2 n d) :=
  shapeCast_apply y h _ _ (by
    rw [Shape.rowMajor_val_four, Shape.rowMajor_val_two]
    show n.val * 48 + d.val = (((0 * 1 + 0) * 2048 + n.val) * 48 + d.val)
    simp only [Nat.zero_mul, Nat.zero_add])

/-- The transposed key matrix. -/
theorem transpose_keys_apply (y : FVec Ideal S2048x48 .bf16) (h : S2048x48.Transposes [1, 0] S48x2048) (e : Fin 48) (j : Fin 2048) :
    transpose S48x2048 [1, 0] y h (ix2 e j) = y (ix2 j e) :=
  transpose_apply [1, 0] y h _ _ (fun b => by
    match b with
    | ⟨0, _⟩ => rfl
    | ⟨1, _⟩ => rfl)

/-! ## The two products at an entry -/

theorem dQK_lhs0 (i : S2048x2048.Idx) (q : dQK.contr.Idx) : (dQK.lhsIdx i q 0).val = (i 0).val := by
  unfold DotDims.lhsIdx
  rw [dif_neg (show ¬(0 : Fin S2048x48.rank) ∈ dQK.lhsBatch by decide), dif_pos (show (0 : Fin S2048x48.rank) ∈ dQK.lhsNonContracting by decide)]
  rfl
theorem dQK_lhs1 (i : S2048x2048.Idx) (q : dQK.contr.Idx) : (dQK.lhsIdx i q 1).val = (q ⟨0, by decide⟩).val :=
  dQK.lhsIdx_val_of_single rfl i q
theorem dQK_rhs0 (i : S2048x2048.Idx) (q : dQK.contr.Idx) : (dQK.rhsIdx i q 0).val = (q ⟨0, by decide⟩).val :=
  dQK.rhsIdx_val_of_single rfl i q
theorem dQK_rhs1 (i : S2048x2048.Idx) (q : dQK.contr.Idx) : (dQK.rhsIdx i q 1).val = (i 1).val := by
  unfold DotDims.rhsIdx
  rw [dif_neg (show ¬(1 : Fin S48x2048.rank) ∈ dQK.rhsBatch by decide), dif_pos (show (1 : Fin S48x2048.rank) ∈ dQK.rhsNonContracting by decide)]
  rfl

theorem mmQK_apply (l : FVec Ideal S2048x48 .bf16) (r : FVec Ideal S48x2048 .bf16) (n j : Fin 2048) :
    matmul (F := Ideal) dQK none l r (constant (F := Ideal) S2048x2048 .f32 0x00000000#32) (ix2 n j)
      = ∑ e : Fin 48, l (ix2 n e) * r (ix2 e j) := by
  simp only [matmul]
  rw [Ideal.matmul_constant_zero_apply, ← Equiv.sum_comp (contrEquiv1 dQK 48 rfl rfl).symm]
  refine Finset.sum_congr rfl fun e _ => ?_
  have hk := contrEquiv1_symm_val dQK 48 rfl rfl e
  have el : dQK.lhsIdx (ix2 n j) ((contrEquiv1 dQK 48 rfl rfl).symm e) = ix2 n e := funext fun a => Fin.ext (by
    match a with
    | ⟨0, _⟩ => exact dQK_lhs0 _ _
    | ⟨1, _⟩ => exact (dQK_lhs1 _ _).trans hk)
  have er : dQK.rhsIdx (ix2 n j) ((contrEquiv1 dQK 48 rfl rfl).symm e) = ix2 e j := funext fun a => Fin.ext (by
    match a with
    | ⟨0, _⟩ => exact (dQK_rhs0 _ _).trans hk
    | ⟨1, _⟩ => exact dQK_rhs1 _ _)
  rw [el, er]

theorem dPV_lhs0 (i : S2048x48.Idx) (q : dPV.contr.Idx) : (dPV.lhsIdx i q 0).val = (i 0).val := by
  unfold DotDims.lhsIdx
  rw [dif_neg (show ¬(0 : Fin S2048x2048.rank) ∈ dPV.lhsBatch by decide), dif_pos (show (0 : Fin S2048x2048.rank) ∈ dPV.lhsNonContracting by decide)]
  rfl
theorem dPV_lhs1 (i : S2048x48.Idx) (q : dPV.contr.Idx) : (dPV.lhsIdx i q 1).val = (q ⟨0, by decide⟩).val :=
  dPV.lhsIdx_val_of_single rfl i q
theorem dPV_rhs0 (i : S2048x48.Idx) (q : dPV.contr.Idx) : (dPV.rhsIdx i q 0).val = (q ⟨0, by decide⟩).val :=
  dPV.rhsIdx_val_of_single rfl i q
theorem dPV_rhs1 (i : S2048x48.Idx) (q : dPV.contr.Idx) : (dPV.rhsIdx i q 1).val = (i 1).val := by
  unfold DotDims.rhsIdx
  rw [dif_neg (show ¬(1 : Fin S2048x48.rank) ∈ dPV.rhsBatch by decide), dif_pos (show (1 : Fin S2048x48.rank) ∈ dPV.rhsNonContracting by decide)]
  rfl

theorem mmPV_apply (l : FVec Ideal S2048x2048 .bf16) (r : FVec Ideal S2048x48 .bf16) (n : Fin 2048) (d : Fin 48) :
    matmul (F := Ideal) dPV none l r (constant (F := Ideal) S2048x48 .f32 0x00000000#32) (ix2 n d)
      = ∑ j : Fin 2048, l (ix2 n j) * r (ix2 j d) := by
  simp only [matmul]
  rw [Ideal.matmul_constant_zero_apply, ← Equiv.sum_comp (contrEquiv1 dPV 2048 rfl rfl).symm]
  refine Finset.sum_congr rfl fun e _ => ?_
  have hk := contrEquiv1_symm_val dPV 2048 rfl rfl e
  have el : dPV.lhsIdx (ix2 n d) ((contrEquiv1 dPV 2048 rfl rfl).symm e) = ix2 n e := funext fun a => Fin.ext (by
    match a with
    | ⟨0, _⟩ => exact dPV_lhs0 _ _
    | ⟨1, _⟩ => exact (dPV_lhs1 _ _).trans hk)
  have er : dPV.rhsIdx (ix2 n d) ((contrEquiv1 dPV 2048 rfl rfl).symm e) = ix2 e d := funext fun a => Fin.ext (by
    match a with
    | ⟨0, _⟩ => exact (dPV_rhs0 _ _).trans hk
    | ⟨1, _⟩ => exact dPV_rhs1 _ _)
  rw [el, er]

/-! ## The scores -/

/-- The score matrix of one (batch, head) pair, as the body computes it from the query and key blocks. -/
def scoresK (x0 x1 : FVec Ideal S1x1x2048x48 .bf16) : FVec Ideal S2048x2048 .f32 :=
  matmul (F := Ideal) dQK none
    (truncf .bf16 (mulf (extf .f32 (shapeCast S2048x48 x0 shapeCasts_S1x1x2048x48_S2048x48) bitsLt_bf16_f32)
      (broadcast S2048x48 (Scalar.ofBits (F := Ideal) .f32 0x3E13CD3A#32))) bitsLt_bf16_f32)
    (transpose S48x2048 [1, 0] (shapeCast S2048x48 x1 shapeCasts_S1x1x2048x48_S2048x48) transposes_S2048x48_p1_0_S48x2048)
    (constant (F := Ideal) S2048x2048 .f32 0x00000000#32)

theorem scoresK_apply (x0 x1 : FVec Ideal S1x1x2048x48 .bf16) (n j : Fin 2048) :
    scoresK x0 x1 (ix2 n j)
      = (∑ e : Fin 48, x0 (ix4 (0 : Fin 1) (0 : Fin 1) n e) * x1 (ix4 (0 : Fin 1) (0 : Fin 1) j e)) * Attn.scl := by
  unfold scoresK
  refine (mmQK_apply _ _ n j).trans ?_
  refine Eq.trans ?_ (Attn.sum_scaled_mul _ _)
  refine Finset.sum_congr rfl fun e _ => ?_
  rw [transpose_keys_apply, cast_in_apply]
  refine congrArg (· * _) ?_
  show (extf .f32 (shapeCast S2048x48 x0 shapeCasts_S1x1x2048x48_S2048x48) bitsLt_bf16_f32 (ix2 n e)) * Attn.scl = _
  exact congrArg (· * Attn.scl) (cast_in_apply x0 _ n e)

/-! ## The softmax of the score matrix -/

/-- A row's maximum as the body takes it. -/
theorem rowmax_apply (s : FVec Ideal S2048x2048 .f32) (h : S2048x2048.Reduces [1] S2048) (hφ : FKind.Formats .f32)
    (hacc : (0xFF800000#32 : BitVec 32) = 0xFF800000#32) (n : Fin 2048) :
    multiReduction (F := Ideal) .maximumf [1] S2048 s 0xFF800000#32 h hφ hacc (ix1 n) = Attn.rowMax (fun j => s (ix2 n j)) := by
  refine (Ideal.multiReduction_maximumf_single s 0xFF800000#32 h hφ hacc (ix1 n)).trans ?_
  have e0 : (FloatOps.ofBits (F := Ideal) .f32 0xFF800000#32 : EReal) = ⊥ := by simp [Ideal.ofBits, Ideal.ieee]
  have e1 : (s ∘ h.lift (ix1 n)) = fun j : Fin 2048 => s (ix2 n j) := funext fun j => congrArg s (funext fun ax => by
    match ax with
    | ⟨0, _⟩ => exact Fin.ext rfl
    | ⟨1, _⟩ => exact Fin.ext rfl)
  rw [e0]
  exact congrArg (fun f => (Finset.univ : Finset (Fin 2048)).fold max ⊥ f) e1

/-- The probabilities the body forms from a score matrix. -/
def probsK (s : FVec Ideal S2048x2048 .f32) : FVec Ideal S2048x2048 .f32 :=
  divf
    (exp (subf s (broadcastTo S2048x2048 (shapeCast S2048x1 (multiReduction (F := Ideal) .maximumf [1] S2048 s 0xFF800000#32 reduces_S2048x2048_S2048 (.inl rfl) rfl) shapeCasts_S2048_S2048x1) broadcasts_S2048x1_S2048x2048)))
    (broadcastTo S2048x2048 (shapeCast S2048x1 (multiReduction (F := Ideal) .add [1] S2048
      (exp (subf s (broadcastTo S2048x2048 (shapeCast S2048x1 (multiReduction (F := Ideal) .maximumf [1] S2048 s 0xFF800000#32 reduces_S2048x2048_S2048 (.inl rfl) rfl) shapeCasts_S2048_S2048x1) broadcasts_S2048x1_S2048x2048)))
      0x00000000#32 reduces_S2048x2048_S2048 (.inl rfl) rfl) shapeCasts_S2048_S2048x1) broadcasts_S2048x1_S2048x2048)

/-- The exponential of an entry less its row's maximum. -/
theorem expshift_apply (s : FVec Ideal S2048x2048 .f32) (n j : Fin 2048) :
    (exp (subf s (broadcastTo S2048x2048 (shapeCast S2048x1 (multiReduction (F := Ideal) .maximumf [1] S2048 s 0xFF800000#32 reduces_S2048x2048_S2048 (.inl rfl) rfl) shapeCasts_S2048_S2048x1) broadcasts_S2048x1_S2048x2048)) : FVec Ideal S2048x2048 .f32) (ix2 n j)
      = Ideal.exp (s (ix2 n j) - Attn.rowMax (fun i => s (ix2 n i))) := by
  show Ideal.exp (s (ix2 n j) - (broadcastTo S2048x2048 (shapeCast S2048x1 (multiReduction (F := Ideal) .maximumf [1] S2048 s 0xFF800000#32 reduces_S2048x2048_S2048 (.inl rfl) rfl) shapeCasts_S2048_S2048x1) broadcasts_S2048x1_S2048x2048) (ix2 n j)) = _
  rw [broadcastTo_a1_ab_apply, shapeCast_a_a1_apply, rowmax_apply]

theorem probsK_apply (s : FVec Ideal S2048x2048 .f32) (n j : Fin 2048) :
    probsK s (ix2 n j) = Attn.probAt (fun i => s (ix2 n i)) j := by
  unfold probsK Attn.probAt
  show Ideal.div _ _ = _
  rw [expshift_apply, broadcastTo_a1_ab_apply, shapeCast_a_a1_apply]
  refine congrArg (Ideal.div _) ?_
  refine (laneSum_apply _ 0x00000000#32 reduces_S2048x2048_S2048 (.inl rfl) rfl n).trans ?_
  exact Finset.sum_congr rfl fun i _ => expshift_apply s n i

/-! ## The stored value -/

theorem pay1_eq (x0 x1 x2 : FVec Ideal S1x1x2048x48 .bf16) :
    k1_pay1 (F := Ideal) x0 x1 x2
      = shapeCast S1x1x2048x48 (truncf .bf16 (matmul (F := Ideal) dPV none (truncf .bf16 (probsK (scoresK x0 x1)) bitsLt_bf16_f32)
          (shapeCast S2048x48 x2 shapeCasts_S1x1x2048x48_S2048x48) (constant (F := Ideal) S2048x48 .f32 0x00000000#32)) bitsLt_bf16_f32)
          shapeCasts_S2048x48_S1x1x2048x48 := rfl

/-- The attention output of one (batch, head) pair at position `n`, lane `d`, from the three blocks. -/
theorem pay1_apply (x0 x1 x2 : FVec Ideal S1x1x2048x48 .bf16) (n : Fin 2048) (d : Fin 48) :
    k1_pay1 (F := Ideal) x0 x1 x2 (ix4 (0 : Fin 1) (0 : Fin 1) n d)
      = ∑ j : Fin 2048, Attn.probAt (fun i => (∑ e : Fin 48, x0 (ix4 (0 : Fin 1) (0 : Fin 1) n e) * x1 (ix4 (0 : Fin 1) (0 : Fin 1) i e)) * Attn.scl) j
          * x2 (ix4 (0 : Fin 1) (0 : Fin 1) j d) := by
  rw [pay1_eq, cast_out_apply]
  refine (mmPV_apply _ _ n d).trans ?_
  refine Finset.sum_congr rfl fun j _ => ?_
  rw [cast_in_apply]
  refine congrArg (· * _) ?_
  refine (probsK_apply (scoresK x0 x1) n j).trans ?_
  exact congrArg (fun f => Attn.probAt f j) (funext fun i => scoresK_apply x0 x1 n i)

end Cert.KernelIdeal.Fr

end
-- ==== Proof.KI.Val1.lean ====
/-
  The attention region's output array. Grid point `t` handles batch `t / 16` and head `t % 16`: each of its four
  windows (queries, keys, values, output) has the block [1, 1, 2048, 48] at block index (batch, head, 0, 0), so the
  point writes back the attention output of that (batch, head) pair computed from the same pair's slices of the three
  input arrays; the 64 blocks tile the [4, 16, 2048, 48] array, which therefore ends holding the specification's
  attention function of the three arrays the region found.
-/
import proofs.«110986_j16475494547544_2_alg».proof.Proof.KI.Pay1
import proofs.«110986_j16475494547544_2_alg».proof.Proof.KI.Vals

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- One (batch, head) pair: if the three blocks are that pair's slices of `q`, `k`, `v`, the stored value is that
    pair's slice of the attention output. -/
theorem pair_value (q k v : FVec Ideal Attn.SH .f32) (x0 x1 x2 : FVec Ideal S1x1x2048x48 .bf16) (b : Fin 4) (h : Fin 16)
    (h0 : ∀ (n : Fin 2048) (e : Fin 48), x0 (ix4 (0 : Fin 1) (0 : Fin 1) n e) = q (ix4 b h n e))
    (h1 : ∀ (n : Fin 2048) (e : Fin 48), x1 (ix4 (0 : Fin 1) (0 : Fin 1) n e) = k (ix4 b h n e))
    (h2 : ∀ (n : Fin 2048) (e : Fin 48), x2 (ix4 (0 : Fin 1) (0 : Fin 1) n e) = v (ix4 b h n e))
    (n : Fin 2048) (d : Fin 48) :
    k1_pay1 (F := Ideal) x0 x1 x2 (ix4 (0 : Fin 1) (0 : Fin 1) n d) = Attn.attn q k v (ix4 b h n d) := by
  rw [pay1_apply, Attn.attn_apply]
  unfold Attn.attnAt Attn.scoreAt
  simp only [h0, h1, h2]

/-- The windows' index maps over the grid: all four windows sit at block (t / 16, t % 16, 0, 0). -/
theorem idx_facts1 : ∀ t : Fin cfg1.N,
    (win1_3.index t (0 : Fin 4) = t.val / 16 ∧ win1_3.index t (1 : Fin 4) = t.val % 16 ∧ win1_3.index t (2 : Fin 4) = 0 ∧ win1_3.index t (3 : Fin 4) = 0)
    ∧ (win1_0.index t (0 : Fin 4) = t.val / 16 ∧ win1_0.index t (1 : Fin 4) = t.val % 16 ∧ win1_0.index t (2 : Fin 4) = 0 ∧ win1_0.index t (3 : Fin 4) = 0)
    ∧ (win1_1.index t (0 : Fin 4) = t.val / 16 ∧ win1_1.index t (1 : Fin 4) = t.val % 16 ∧ win1_1.index t (2 : Fin 4) = 0 ∧ win1_1.index t (3 : Fin 4) = 0)
    ∧ (win1_2.index t (0 : Fin 4) = t.val / 16 ∧ win1_2.index t (1 : Fin 4) = t.val % 16 ∧ win1_2.index t (2 : Fin 4) = 0 ∧ win1_2.index t (3 : Fin 4) = 0) :=
  (by decide +kernel : ∀ t : Fin grid1.N, _)

/-- An input window's block at point `t`, read at (0, 0, n, e), is its array at (t / 16, t % 16, n, e). -/
theorem iblk1_0_apply (c : Dev nD) (t : Fin cfg1.N) (n : Fin 2048) (e : Fin 48) :
    (iblk1 V c 0 t : FVec Ideal S1x1x2048x48 .bf16) (ix4 (0 : Fin 1) (0 : Fin 1) n e)
      = (V c main_v5_0 : FVec Ideal S4x16x2048x48 .bf16) (ix4 (⟨t.val / 16, by have := t.isLt; have : cfg1.N = 64 := N_1; omega⟩ : Fin 4) (⟨t.val % 16, Nat.mod_lt _ (by decide)⟩ : Fin 16) n e) := by
  obtain ⟨-, ⟨e0, e1, e2, e3⟩, ⟨f0, f1, f2, f3⟩, ⟨g0, g1, g2, g3⟩⟩ := idx_facts1 t
  unfold iblk1
  rw [View.read_apply]
  show V c main_v5_0 _ = V c main_v5_0 _
  congr 1
  funext a
  apply Fin.ext
  match a with
  | ⟨0, _⟩ => show win1_0.index t (0 : Fin 4) * 1 + 1 * 0 = t.val / 16; omega
  | ⟨1, _⟩ => show win1_0.index t (1 : Fin 4) * 1 + 1 * 0 = t.val % 16; omega
  | ⟨2, _⟩ => show win1_0.index t (2 : Fin 4) * 2048 + 1 * n.val = n.val; omega
  | ⟨3, _⟩ => show win1_0.index t (3 : Fin 4) * 48 + 1 * e.val = e.val; omega
theorem iblk1_1_apply (c : Dev nD) (t : Fin cfg1.N) (n : Fin 2048) (e : Fin 48) :
    (iblk1 V c 1 t : FVec Ideal S1x1x2048x48 .bf16) (ix4 (0 : Fin 1) (0 : Fin 1) n e)
      = (V c main_v5_1 : FVec Ideal S4x16x2048x48 .bf16) (ix4 (⟨t.val / 16, by have := t.isLt; have : cfg1.N = 64 := N_1; omega⟩ : Fin 4) (⟨t.val % 16, Nat.mod_lt _ (by decide)⟩ : Fin 16) n e) := by
  obtain ⟨-, ⟨e0, e1, e2, e3⟩, ⟨f0, f1, f2, f3⟩, ⟨g0, g1, g2, g3⟩⟩ := idx_facts1 t
  unfold iblk1
  rw [View.read_apply]
  show V c main_v5_1 _ = V c main_v5_1 _
  congr 1
  funext a
  apply Fin.ext
  match a with
  | ⟨0, _⟩ => show win1_1.index t (0 : Fin 4) * 1 + 1 * 0 = t.val / 16; omega
  | ⟨1, _⟩ => show win1_1.index t (1 : Fin 4) * 1 + 1 * 0 = t.val % 16; omega
  | ⟨2, _⟩ => show win1_1.index t (2 : Fin 4) * 2048 + 1 * n.val = n.val; omega
  | ⟨3, _⟩ => show win1_1.index t (3 : Fin 4) * 48 + 1 * e.val = e.val; omega
theorem iblk1_2_apply (c : Dev nD) (t : Fin cfg1.N) (n : Fin 2048) (e : Fin 48) :
    (iblk1 V c 2 t : FVec Ideal S1x1x2048x48 .bf16) (ix4 (0 : Fin 1) (0 : Fin 1) n e)
      = (V c main_v5_2 : FVec Ideal S4x16x2048x48 .bf16) (ix4 (⟨t.val / 16, by have := t.isLt; have : cfg1.N = 64 := N_1; omega⟩ : Fin 4) (⟨t.val % 16, Nat.mod_lt _ (by decide)⟩ : Fin 16) n e) := by
  obtain ⟨-, ⟨e0, e1, e2, e3⟩, ⟨f0, f1, f2, f3⟩, ⟨g0, g1, g2, g3⟩⟩ := idx_facts1 t
  unfold iblk1
  rw [View.read_apply]
  show V c main_v5_2 _ = V c main_v5_2 _
  congr 1
  funext a
  apply Fin.ext
  match a with
  | ⟨0, _⟩ => show win1_2.index t (0 : Fin 4) * 1 + 1 * 0 = t.val / 16; omega
  | ⟨1, _⟩ => show win1_2.index t (1 : Fin 4) * 1 + 1 * 0 = t.val % 16; omega
  | ⟨2, _⟩ => show win1_2.index t (2 : Fin 4) * 2048 + 1 * n.val = n.val; omega
  | ⟨3, _⟩ => show win1_2.index t (3 : Fin 4) * 48 + 1 * e.val = e.val; omega

/-- What point `t` writes back is its block of the attention function of the three arrays the region found. -/
theorem flushed1_eq (c : Dev nD) (t : Fin cfg1.N) :
    (dat1 V c).flushed 3 t = ((cfg1.win 3).blk t).view.read (Elt Ideal)
      (Attn.attn (V c main_v5_0 : FVec Ideal S4x16x2048x48 .bf16) (V c main_v5_1 : FVec Ideal S4x16x2048x48 .bf16) (V c main_v5_2 : FVec Ideal S4x16x2048x48 .bf16)) := by
  show (cfg1.win 3).cut (grid1.coords t) ((dat1 V c).after 3 t) = _
  rw [after1_3]
  unfold out1_3
  rw [View.canon_unit_zero hz4]
  simp only [View.ld_unit_zero (S := S1x1x2048x48) hz4]
  funext j
  rw [View.read_apply]
  obtain ⟨⟨e0, e1, e2, e3⟩, -, -, -⟩ := idx_facts1 t
  have hj : (j : S1x1x2048x48.Idx) = ix4 (0 : Fin 1) (0 : Fin 1) (j 2) (j 3) := by
    funext a
    apply Fin.ext
    match a with
    | ⟨0, _⟩ => show (j 0).val = 0; have h0 : (j 0).val < 1 := (j 0).isLt; omega
    | ⟨1, _⟩ => show (j 1).val = 0; have h1 : (j 1).val < 1 := (j 1).isLt; omega
    | ⟨2, _⟩ => rfl
    | ⟨3, _⟩ => rfl
  have hemb : ((cfg1.win 3).blk t).view.emb j
      = ix4 (⟨t.val / 16, by have := t.isLt; have : cfg1.N = 64 := N_1; omega⟩ : Fin 4) (⟨t.val % 16, Nat.mod_lt _ (by decide)⟩ : Fin 16) (j 2) (j 3) := by
    funext a
    apply Fin.ext
    match a with
    | ⟨0, _⟩ => show win1_3.index t (0 : Fin 4) * 1 + 1 * (j 0).val = t.val / 16; have h0 : (j 0).val < 1 := (j 0).isLt; omega
    | ⟨1, _⟩ => show win1_3.index t (1 : Fin 4) * 1 + 1 * (j 1).val = t.val % 16; have h1 : (j 1).val < 1 := (j 1).isLt; omega
    | ⟨2, _⟩ => show win1_3.index t (2 : Fin 4) * 2048 + 1 * (j 2).val = (j 2).val; omega
    | ⟨3, _⟩ => show win1_3.index t (3 : Fin 4) * 48 + 1 * (j 3).val = (j 3).val; omega
  rw [hemb]
  refine Eq.trans (congrArg (k1_pay1 (F := Ideal) (iblk1 V c 0 t) (iblk1 V c 1 t) (iblk1 V c 2 t)) hj) ?_
  exact pair_value _ _ _ _ _ _ _ _ (iblk1_0_apply V c t) (iblk1_1_apply V c t) (iblk1_2_apply V c t) (j 2) (j 3)

/-- An index of the array is in point `t`'s block iff each coordinate is in the block's range on its axis. -/
theorem mem_blk1 (t : Fin cfg1.N) (i : S4x16x2048x48.Idx) :
    i ∈ ((cfg1.win 3).blk t).view.set ↔ ∀ a : Fin 4, win1_3.index t a * S1x1x2048x48.size a ≤ (i a).val ∧ (i a).val < win1_3.index t a * S1x1x2048x48.size a + S1x1x2048x48.size a := by
  show i ∈ ((View.whole main_v6).slice (win1_3.rect t)).set ↔ _
  rw [View.set_slice_whole, Rect.mem_set_unit]
  exact Iff.rfl

/-- Every index of the array lies in the block of the point `batch * 16 + head`. -/
theorem cover1 (i : S4x16x2048x48.Idx) : ∃ t : Fin cfg1.N, (cfg1.win 3).flush t = true ∧ i ∈ ((cfg1.win 3).blk t).view.set := by
  have hN : cfg1.N = 64 := N_1
  have h0 : (i 0).val < 4 := (i 0).isLt
  have h1 : (i 1).val < 16 := (i 1).isLt
  have h2 : (i 2).val < 2048 := (i 2).isLt
  have h3 : (i 3).val < 48 := (i 3).isLt
  obtain ⟨t, ht⟩ : ∃ t : Fin cfg1.N, t.val = (i 0).val * 16 + (i 1).val := ⟨⟨(i 0).val * 16 + (i 1).val, by omega⟩, rfl⟩
  refine ⟨t, flush1_3 t, ?_⟩
  rw [mem_blk1]
  obtain ⟨⟨e0, e1, e2, e3⟩, -, -, -⟩ := idx_facts1 t
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 2048 ≤ (i 2).val ∧ (i 2).val < win1_3.index t (2 : Fin 4) * 2048 + 2048; omega
  | ⟨3, _⟩ => show win1_3.index t (3 : Fin 4) * 48 ≤ (i 3).val ∧ (i 3).val < win1_3.index t (3 : Fin 4) * 48 + 48; omega

/-- The region's output array after the run. -/
theorem arr1_3 (c : Dev nD) : (dat1 V c).arrAt 3 cfg1.N
    = Attn.attn (V c main_v5_0 : FVec Ideal S4x16x2048x48 .bf16) (V c main_v5_1 : FVec Ideal S4x16x2048x48 .bf16) (V c main_v5_2 : FVec Ideal S4x16x2048x48 .bf16) :=
  (dat1 V c).arrAt_eq_of_cover 3 _ (fun t _ => flushed1_eq V c t) cover1

variable (m : (ℓ : Loc nD τ sig) → Buf (Elt Ideal) ℓ) (ρ : Dev nD → PrngReg)

/-- After the attention region its result buffer holds the attention function of the three buffers the projection
    region left. -/
theorem attn_value (c : Dev nD) (q k v : FVec Ideal Attn.SH .f32)
    (hq : W2 m ρ c (Proc.devRef .tc main_v5_0) = q) (hk : W2 m ρ c (Proc.devRef .tc main_v5_1) = k)
    (hv : W2 m ρ c (Proc.devRef .tc main_v5_2) = v) :
    W3 m ρ c (Proc.devRef .tc main_v6) = Attn.attn q k v := by
  subst hq hk hv
  exact (W3_arr m ρ c 3).trans (arr1_3 (V2 m ρ) c)

end Cert.KernelIdeal.Fr

end
-- ==== Proof.KI.Host2.lean ====
/-
  What the output region finds in the buffers it reads: the input as launched, the attention region's result
  untouched by the host operations between the two regions, the fourth weight matrix transposed (and its entries'
  format changed, which at the ideal values changes nothing), and its bias as a one-row matrix.
-/
import proofs.«110986_j16475494547544_2_alg».proof.Proof.KI.Vals
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The fourth weight matrix and its bias reach the second stretch of host operations as launched. -/
theorem W3_arg7 (c : Dev nD) : W3 m ρ c (Proc.devRef .tc main_arg7) = m ((c : Thread nD τ).loc main_arg7) :=
  (W3_of_ne m ρ c main_arg7 (by decide)).trans <| (W2_of_ne m ρ c main_arg7 (by decide)).trans <|
    (W1_keep m ρ c main_arg7 (by decide)).trans rfl
theorem W3_arg8 (c : Dev nD) : W3 m ρ c (Proc.devRef .tc main_arg8) = m ((c : Thread nD τ).loc main_arg8) :=
  (W3_of_ne m ρ c main_arg8 (by decide)).trans <| (W2_of_ne m ρ c main_arg8 (by decide)).trans <|
    (W1_keep m ρ c main_arg8 (by decide)).trans rfl

/-- The input reaches the output region as launched: the projection region only reads it. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keep m ρ c main_arg0 (by decide)
    _ = m ((c : Thread nD τ).loc main_arg0) := rfl

/-- The attention region's result is not written by the host operations after it. -/
theorem W4_v6 (c : Dev nD) : W4 m ρ c (Proc.devRef .tc main_v6) = W3 m ρ c (Proc.devRef .tc main_v6) :=
  W4_keep m ρ c main_v6 (by decide)

/-- The transposed fourth weight matrix. -/
theorem W4_v8 (c : Dev nD) : W4 m ρ c (Proc.devRef .tc main_v8)
    = truncf (F := Ideal) .bf16 (transpose S768x768 [1, 0] (W3 m ρ c (Proc.devRef .tc main_arg7) : FVec Ideal S768x768 .f32) transposes_S768x768_S768x768_1_0) bitsLt_bf16_f32 := by
  show StableHlo.after hostOps2 (W3 m ρ c) (Proc.devRef .tc main_v8) = _
  after_results

theorem W4_v8_apply (c : Dev nD) (cc e : Fin 768) :
    (W4 m ρ c (Proc.devRef .tc main_v8) : FVec Ideal S768x768 .bf16) (ix2 cc e)
      = (m ((c : Thread nD τ).loc main_arg7) : FVec Ideal S768x768 .f32) (ix2 e cc) := by
  rw [W4_v8, W3_arg7]
  exact transpose_ix2_apply _ transposes_S768x768_S768x768_1_0 cc e

/-- The bias as a one-row matrix. -/
theorem W4_v9 (c : Dev nD) : W4 m ρ c (Proc.devRef .tc main_v9)
    = shapeCast S1x768 (W3 m ρ c (Proc.devRef .tc main_arg8) : FVec Ideal S768 .f32) shapeCasts_S768_S1x768 := by
  show StableHlo.after hostOps2 (W3 m ρ c) (Proc.devRef .tc main_v9) = _
  after_results
  rfl

theorem W4_v9_apply (c : Dev nD) (e : Fin 768) :
    (W4 m ρ c (Proc.devRef .tc main_v9) : FVec Ideal S1x768 .f32) (ix2 (0 : Fin 1) e)
      = (m ((c : Thread nD τ).loc main_arg8) : FVec Ideal S768 .f32) (ix1 e) := by
  rw [W4_v9, W3_arg8]
  exact shapeCast_a_1a_apply _ shapeCasts_S768_S1x768 (0 : Fin 1) e

end Cert.KernelIdeal.Fr

end
-- ==== Proof.KI.Final.lean ====
/-
  The program's result. The three projections leave the query, key and value arrays; the attention region turns
  them into the attention array; the host operations after it leave that array alone; and the output region, which
  finds the input as launched, the transposed fourth weight matrix and its bias, leaves the specification's result
  in the result buffer.
-/
import proofs.«110986_j16475494547544_2_alg».proof.Proof.KI.Val0
import proofs.«110986_j16475494547544_2_alg».proof.Proof.KI.Val2
import proofs.«110986_j16475494547544_2_alg».proof.Proof.KI.Val1
import proofs.«110986_j16475494547544_2_alg».proof.Proof.KI.Host2

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The output region's result from the attention array it finds. -/
theorem out_value (c : Dev nD) (a : FVec Ideal Attn.SH .f32) (ha : W4 m ρ c (Proc.devRef .tc main_v6) = a) :
    W5 m ρ c (Proc.devRef .tc main_v10)
      = Attn.out (m ((c : Thread nD τ).loc main_arg0)) a (m ((c : Thread nD τ).loc main_arg7)) (m ((c : Thread nD τ).loc main_arg8)) := by
  subst ha
  have h := arr2_4 (V4 m ρ) c (m ((c : Thread nD τ).loc main_arg7)) (m ((c : Thread nD τ).loc main_arg8))
    (W4_v8_apply m ρ c) (W4_v9_apply m ρ c)
  have h0 : V4 m ρ c main_arg0 = m ((c : Thread nD τ).loc main_arg0) := W4_arg0 m ρ c
  rw [h0] at h
  exact (W5_arr m ρ c 4).trans h

/-- The result buffer at the program's end holds the whole function of the nine arguments. -/
theorem final_value (c : Dev nD) :
    W5 m ρ c (Proc.devRef .tc main_v10)
      = Attn.final (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
  out_value m ρ c _ ((W4_v6 m ρ c).trans (attn_value m ρ c _ _ _ (q_value m ρ c) (k_value m ρ c) (v_value m ρ c)))

end Cert.KernelIdeal.Fr

end
-- ==== Proof.Ref.Proj.lean ====
/-
  The reference's three linear projections, read in the head layout: the product with the transposed weight, the
  bias broadcast along batch and position, the feature axis split into (head, lane) and the head axis moved in
  front of the position axis. At the index (b, h, n, d) each is the sum over the input features of
  x[b, n, c] · w[h·48+d, c], plus the bias at h·48+d.
-/
import proofs.«110986_j16475494547544_2_alg».proof.Proof.Spec
import proofs.«110986_j16475494547544_2_alg».proof.Proof.Gen.ReferenceIdeal.Read

noncomputable section

open scoped BigOperators

namespace Cert.ReferenceIdeal.Hand

open Cert.ReferenceIdeal Cert.ReferenceIdeal.Gen Cert.ReferenceIdeal.Read Idealize.ShloMosaic Idealize.ShloMosaic.ValueIdx

/-- The flat position of (b, n, h, d) in [4, 2048, 16, 48], read back in [4, 2048, 768], is (b, n, h·48+d). -/
theorem split_idx (b : Fin 4) (h : Fin 16) (n : Fin 2048) (d : Fin 48) :
    idx_main_v4 (idx_main_v5 (ix4 b h n d)) = ix3 b n (Attn.col h d) := by
  have hb := b.isLt; have hh := h.isLt; have hn := n.isLt; have hd := d.isLt
  funext a
  refine Fin.ext ?_
  match a with
  | ⟨0, _⟩ => show (((b.val * 2048 + n.val) * 16 + h.val) * 48 + d.val) / 1572864 = b.val; omega
  | ⟨1, _⟩ => show (((b.val * 2048 + n.val) * 16 + h.val) * 48 + d.val) / 768 % 2048 = n.val; omega
  | ⟨2, _⟩ => show (((b.val * 2048 + n.val) * 16 + h.val) * 48 + d.val) % 768 = h.val * 48 + d.val; omega

theorem lidx_v0 (b : Fin 4) (n : Fin 2048) (e c : Fin 768) : lidx_main_v0 (ix3 b n e) c = ix3 b n c :=
  funext fun a => Fin.ext (by match a with | ⟨0, _⟩ => rfl | ⟨1, _⟩ => rfl | ⟨2, _⟩ => rfl)
theorem ridx_v0 (b : Fin 4) (n : Fin 2048) (e c : Fin 768) : ridx_main_v0 (ix3 b n e) c = ix2 e c :=
  funext fun a => Fin.ext (by match a with | ⟨0, _⟩ => rfl | ⟨1, _⟩ => rfl)
theorem bias_idx (b : Fin 4) (n : Fin 2048) (e : Fin 768) : idx_main_v1 (idx_main_v2 (ix3 b n e)) = ix1 e :=
  funext fun a => Fin.ext (by match a with | ⟨0, _⟩ => rfl)

/-- The first projection in the head layout. -/
theorem v5_eq (x0 : (⟨S4x2048x768, .f32⟩ : BufTy).Contents (Elt Ideal)) (x1 : (⟨S768x768, .f32⟩ : BufTy).Contents (Elt Ideal))
    (x2 : (⟨S768, .f32⟩ : BufTy).Contents (Elt Ideal)) :
    val_main_v5 (F := Ideal) x0 x1 x2 = Attn.proj x0 x1 x2 := by
  funext i
  obtain ⟨b, h, n, d, rfl⟩ : ∃ (b : Fin 4) (h : Fin 16) (n : Fin 2048) (d : Fin 48), i = ix4 b h n d :=
    ⟨i 0, i 1, i 2, i 3, eq_ix4 i⟩
  rw [val_main_v5_apply, val_main_v4_apply, val_main_v3_apply, val_main_v0_apply, val_main_v2_apply, val_main_v1_apply,
    Attn.proj_apply, split_idx, bias_idx]
  simp only [lidx_v0, ridx_v0, Ideal.addf_def]
  rfl

/-- The second and third projections are the same operations at the other weights and biases. -/
theorem v11_eq (x0 : (⟨S4x2048x768, .f32⟩ : BufTy).Contents (Elt Ideal)) (x3 : (⟨S768x768, .f32⟩ : BufTy).Contents (Elt Ideal))
    (x4 : (⟨S768, .f32⟩ : BufTy).Contents (Elt Ideal)) :
    val_main_v11 (F := Ideal) x0 x3 x4 = Attn.proj x0 x3 x4 :=
  (show val_main_v11 (F := Ideal) x0 x3 x4 = val_main_v5 (F := Ideal) x0 x3 x4 from rfl).trans (v5_eq x0 x3 x4)
theorem v17_eq (x0 : (⟨S4x2048x768, .f32⟩ : BufTy).Contents (Elt Ideal)) (x5 : (⟨S768x768, .f32⟩ : BufTy).Contents (Elt Ideal))
    (x6 : (⟨S768, .f32⟩ : BufTy).Contents (Elt Ideal)) :
    val_main_v17 (F := Ideal) x0 x5 x6 = Attn.proj x0 x5 x6 :=
  (show val_main_v17 (F := Ideal) x0 x5 x6 = val_main_v5 (F := Ideal) x0 x5 x6 from rfl).trans (v5_eq x0 x5 x6)

end Cert.ReferenceIdeal.Hand

end
-- ==== Proof.Ref.Soft.lean ====
/-
  The reference's scores and their row-wise softmax: the scaled sum over the lanes of query times key, the row's
  maximum as the fold of max from the bottom element, the exponentials of the differences, their sum along the row,
  and the quotient.
-/
import proofs.«110986_j16475494547544_2_alg».proof.Proof.Ref.Proj

noncomputable section

open scoped BigOperators

namespace Cert.ReferenceIdeal.Hand

open Cert.ReferenceIdeal Cert.ReferenceIdeal.Gen Cert.ReferenceIdeal.Read Idealize.ShloMosaic Idealize.ShloMosaic.ValueIdx

theorem lidx_v18 (b : Fin 4) (h : Fin 16) (n j : Fin 2048) (d : Fin 48) : lidx_main_v18 (ix4 b h n j) d = ix4 b h n d :=
  funext fun a => Fin.ext (by match a with | ⟨0, _⟩ => rfl | ⟨1, _⟩ => rfl | ⟨2, _⟩ => rfl | ⟨3, _⟩ => rfl)
theorem ridx_v18 (b : Fin 4) (h : Fin 16) (n j : Fin 2048) (d : Fin 48) : ridx_main_v18 (ix4 b h n j) d = ix4 b h j d :=
  funext fun a => Fin.ext (by match a with | ⟨0, _⟩ => rfl | ⟨1, _⟩ => rfl | ⟨2, _⟩ => rfl | ⟨3, _⟩ => rfl)

/-- The scaled scores. -/
theorem v20_apply (x0 : (⟨S4x2048x768, .f32⟩ : BufTy).Contents (Elt Ideal)) (x1 : (⟨S768x768, .f32⟩ : BufTy).Contents (Elt Ideal))
    (x2 : (⟨S768, .f32⟩ : BufTy).Contents (Elt Ideal)) (x3 : (⟨S768x768, .f32⟩ : BufTy).Contents (Elt Ideal))
    (x4 : (⟨S768, .f32⟩ : BufTy).Contents (Elt Ideal)) (b : Fin 4) (h : Fin 16) (n j : Fin 2048) :
    val_main_v20 (F := Ideal) x0 x1 x2 x3 x4 (ix4 b h n j)
      = Attn.scoreAt (Attn.proj x0 x1 x2) (Attn.proj x0 x3 x4) b h n j := by
  rw [val_main_v20_apply, val_main_v18_apply, val_main_v19_apply, val_main_cst_apply, v5_eq, v11_eq]
  simp only [lidx_v18, ridx_v18, Ideal.mulf_def, Ideal.ofBits_def]
  rfl

/-- The key axis is the one the row reductions drop. -/
theorem dropsKeys : S4x16x2048x2048.Reduces [3] S4x16x2048 := by decide

/-- The word the maximum starts from is the bottom element. -/
theorem neg_inf : Ideal.ofBits .f32 0xFF800000#32 = (⊥ : EReal) := by simp [Ideal.ofBits, Ideal.ieee]

/-- A row's maximum: the host's reduction with a maximum body over the key axis, from the bottom element. -/
theorem reduce_max_apply (y : (⟨S4x16x2048x2048, .f32⟩ : BufTy).Contents (Elt Ideal)) (b : Fin 4) (h : Fin 16) (n : Fin 2048) :
    Host.reduce (FloatOps.maximumf (F := Ideal) (φ := .f32)) y (val_main_cst_0 (F := Ideal))
        reducesTo_S4x16x2048x2048_S4x16x2048_d3 h_S_ (ix3 b h n)
      = Attn.rowMax (fun j => y (ix4 b h n j)) := by
  rw [Host.reduce_eq_fold_single _ y _ reducesTo_S4x16x2048x2048_S4x16x2048_d3 dropsKeys h_S_]
  unfold Attn.rowMax
  show (Finset.univ : Finset (Fin 2048)).fold max (Ideal.ofBits .f32 0xFF800000#32) (y ∘ dropsKeys.lift (ix3 b h n)) = _
  rw [neg_inf]
  refine congrArg (fun f => Finset.fold max ⊥ f Finset.univ) (funext fun j => ?_)
  show y (dropsKeys.lift (ix3 b h n) j) = y (ix4 b h n j)
  refine congrArg y (funext fun a => Fin.ext ?_)
  match a with
  | ⟨0, _⟩ => rfl
  | ⟨1, _⟩ => rfl
  | ⟨2, _⟩ => rfl
  | ⟨3, _⟩ => rfl

theorem v23_apply (x0 : (⟨S4x2048x768, .f32⟩ : BufTy).Contents (Elt Ideal)) (x1 : (⟨S768x768, .f32⟩ : BufTy).Contents (Elt Ideal))
    (x2 : (⟨S768, .f32⟩ : BufTy).Contents (Elt Ideal)) (x3 : (⟨S768x768, .f32⟩ : BufTy).Contents (Elt Ideal))
    (x4 : (⟨S768, .f32⟩ : BufTy).Contents (Elt Ideal)) (b : Fin 4) (h : Fin 16) (n : Fin 2048) :
    val_main_v23 (F := Ideal) x0 x1 x2 x3 x4 (ix3 b h n)
      = Attn.rowMax (fun j => Attn.scoreAt (Attn.proj x0 x1 x2) (Attn.proj x0 x3 x4) b h n j) := by
  rw [val_main_v23_apply, val_main_v22_apply, val_main_cst_1_apply]
  unfold val_main_v21
  rw [reduce_max_apply]
  simp only [v20_apply, Ideal.maximumf_def, Ideal.ofBits_def, neg_inf]
  exact max_bot_left _

theorem row_idx (b : Fin 4) (h : Fin 16) (n j : Fin 2048) : idx_main_v24 (idx_main_v25 (ix4 b h n j)) = ix3 b h n :=
  funext fun a => Fin.ext (by match a with | ⟨0, _⟩ => rfl | ⟨1, _⟩ => rfl | ⟨2, _⟩ => rfl)
theorem row_idx' (b : Fin 4) (h : Fin 16) (n j : Fin 2048) : idx_main_v29 (idx_main_v30 (ix4 b h n j)) = ix3 b h n :=
  funext fun a => Fin.ext (by match a with | ⟨0, _⟩ => rfl | ⟨1, _⟩ => rfl | ⟨2, _⟩ => rfl)
theorem idx_v28 (b : Fin 4) (h : Fin 16) (n k : Fin 2048) : idx_main_v28 (ix3 b h n) k = ix4 b h n k :=
  funext fun a => Fin.ext (by match a with | ⟨0, _⟩ => rfl | ⟨1, _⟩ => rfl | ⟨2, _⟩ => rfl | ⟨3, _⟩ => rfl)

/-- The exponentials of the scores less their row's maximum. -/
theorem v27_apply (x0 : (⟨S4x2048x768, .f32⟩ : BufTy).Contents (Elt Ideal)) (x1 : (⟨S768x768, .f32⟩ : BufTy).Contents (Elt Ideal))
    (x2 : (⟨S768, .f32⟩ : BufTy).Contents (Elt Ideal)) (x3 : (⟨S768x768, .f32⟩ : BufTy).Contents (Elt Ideal))
    (x4 : (⟨S768, .f32⟩ : BufTy).Contents (Elt Ideal)) (b : Fin 4) (h : Fin 16) (n j : Fin 2048) :
    val_main_v27 (F := Ideal) x0 x1 x2 x3 x4 (ix4 b h n j)
      = Ideal.exp (Attn.scoreAt (Attn.proj x0 x1 x2) (Attn.proj x0 x3 x4) b h n j
          - Attn.rowMax (fun i => Attn.scoreAt (Attn.proj x0 x1 x2) (Attn.proj x0 x3 x4) b h n i)) := by
  rw [val_main_v27_apply, val_main_v26_apply, val_main_v25_apply, val_main_v24_apply, row_idx, v23_apply, v20_apply]
  simp only [Ideal.hostUnary_exp_def, Ideal.subf_def]

/-- The probabilities: each exponential over the sum of its row's. -/
theorem v31_apply (x0 : (⟨S4x2048x768, .f32⟩ : BufTy).Contents (Elt Ideal)) (x1 : (⟨S768x768, .f32⟩ : BufTy).Contents (Elt Ideal))
    (x2 : (⟨S768, .f32⟩ : BufTy).Contents (Elt Ideal)) (x3 : (⟨S768x768, .f32⟩ : BufTy).Contents (Elt Ideal))
    (x4 : (⟨S768, .f32⟩ : BufTy).Contents (Elt Ideal)) (b : Fin 4) (h : Fin 16) (n j : Fin 2048) :
    val_main_v31 (F := Ideal) x0 x1 x2 x3 x4 (ix4 b h n j)
      = Attn.probAt (fun i => Attn.scoreAt (Attn.proj x0 x1 x2) (Attn.proj x0 x3 x4) b h n i) j := by
  rw [val_main_v31_apply, val_main_v30_apply, val_main_v29_apply, row_idx', val_main_v28_apply, val_main_cst_2_apply, v27_apply]
  simp only [idx_v28, v27_apply, Ideal.hostDivf_def, Ideal.ofBits_def, Ideal.ofBits_zero_f32, zero_add]
  rfl

end Cert.ReferenceIdeal.Hand

end
-- ==== Proof.Ref.Tail.lean ====
/-
  The reference's weighted sum of the values, the heads laid back side by side with the input added, and the last
  linear map with its bias and the two residual sums: the result array is the one closed function of the nine arguments.
-/
import proofs.«110986_j16475494547544_2_alg».proof.Proof.Ref.Soft

noncomputable section

open scoped BigOperators

namespace Cert.ReferenceIdeal.Hand

open Cert.ReferenceIdeal Cert.ReferenceIdeal.Gen Cert.ReferenceIdeal.Read Idealize.ShloMosaic Idealize.ShloMosaic.ValueIdx

theorem lidx_v32 (b : Fin 4) (h : Fin 16) (n : Fin 2048) (d : Fin 48) (j : Fin 2048) : lidx_main_v32 (ix4 b h n d) j = ix4 b h n j :=
  funext fun a => Fin.ext (by match a with | ⟨0, _⟩ => rfl | ⟨1, _⟩ => rfl | ⟨2, _⟩ => rfl | ⟨3, _⟩ => rfl)
theorem ridx_v32 (b : Fin 4) (h : Fin 16) (n : Fin 2048) (d : Fin 48) (j : Fin 2048) : ridx_main_v32 (ix4 b h n d) j = ix4 b h j d :=
  funext fun a => Fin.ext (by match a with | ⟨0, _⟩ => rfl | ⟨1, _⟩ => rfl | ⟨2, _⟩ => rfl | ⟨3, _⟩ => rfl)

/-- The attention output in the head layout. -/
theorem v32_eq (x0 : (⟨S4x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) :
    val_main_v32 (F := Ideal) x0 x1 x2 x3 x4 x5 x6
      = Attn.attn (Attn.proj x0 x1 x2) (Attn.proj x0 x3 x4) (Attn.proj x0 x5 x6) := by
  funext i
  obtain ⟨b, h, n, d, rfl⟩ : ∃ (b : Fin 4) (h : Fin 16) (n : Fin 2048) (d : Fin 48), i = ix4 b h n d :=
    ⟨i 0, i 1, i 2, i 3, eq_ix4 i⟩
  rw [val_main_v32_apply, v17_eq, Attn.attn_apply]
  simp only [lidx_v32, ridx_v32, v31_apply]
  rfl

/-- The flat position of (b, n, e) in [4, 2048, 768], read back in [4, 2048, 16, 48] with the head axis moved in front
    of the position axis, is (b, e / 48, n, e % 48). -/
theorem merge_idx (b : Fin 4) (n : Fin 2048) (e : Fin 768) :
    idx_main_v33 (idx_main_v34 (ix3 b n e)) = ix4 b (Attn.hd e) n (Attn.ln e) := by
  have hb := b.isLt; have hn := n.isLt; have he := e.isLt
  funext a
  refine Fin.ext ?_
  match a with
  | ⟨0, _⟩ => show ((b.val * 2048 + n.val) * 768 + e.val) / 1572864 = b.val; omega
  | ⟨1, _⟩ => show ((b.val * 2048 + n.val) * 768 + e.val) / 48 % 16 = e.val / 48; omega
  | ⟨2, _⟩ => show ((b.val * 2048 + n.val) * 768 + e.val) / 768 % 2048 = n.val; omega
  | ⟨3, _⟩ => show ((b.val * 2048 + n.val) * 768 + e.val) % 48 = e.val % 48; omega

/-- The heads side by side plus the input. -/
theorem v35_apply (x0 : (⟨S4x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 4) (n : Fin 2048) (e : Fin 768) :
    val_main_v35 (F := Ideal) x0 x1 x2 x3 x4 x5 x6 (ix3 b n e)
      = Attn.yAt x0 (Attn.attn (Attn.proj x0 x1 x2) (Attn.proj x0 x3 x4) (Attn.proj x0 x5 x6)) b n e := by
  rw [val_main_v35_apply, val_main_v34_apply, val_main_v33_apply, merge_idx, v32_eq]
  rfl

theorem lidx_v36 (b : Fin 4) (n : Fin 2048) (e c : Fin 768) : lidx_main_v36 (ix3 b n e) c = ix3 b n c :=
  funext fun a => Fin.ext (by match a with | ⟨0, _⟩ => rfl | ⟨1, _⟩ => rfl | ⟨2, _⟩ => rfl)
theorem ridx_v36 (b : Fin 4) (n : Fin 2048) (e c : Fin 768) : ridx_main_v36 (ix3 b n e) c = ix2 e c :=
  funext fun a => Fin.ext (by match a with | ⟨0, _⟩ => rfl | ⟨1, _⟩ => rfl)
theorem bias_idx' (b : Fin 4) (n : Fin 2048) (e : Fin 768) : idx_main_v37 (idx_main_v38 (ix3 b n e)) = ix1 e :=
  funext fun a => Fin.ext (by match a with | ⟨0, _⟩ => rfl)

/-- The run's last stage is the whole function of the nine arguments. -/
theorem v41_eq (x0 : (⟨S4x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) :
    val_main_v41 (F := Ideal) x0 x1 x2 x3 x4 x5 x6 x7 x8 = Attn.final x0 x1 x2 x3 x4 x5 x6 x7 x8 := by
  funext i
  obtain ⟨b, n, e, rfl⟩ : ∃ (b : Fin 4) (n : Fin 2048) (e : Fin 768), i = ix3 b n e := ⟨i 0, i 1, i 2, eq_ix3 i⟩
  rw [val_main_v41_apply, val_main_v40_apply, val_main_v39_apply, val_main_v36_apply, val_main_v38_apply, val_main_v37_apply,
    bias_idx']
  unfold Attn.final
  rw [Attn.out_apply]
  simp only [lidx_v36, ridx_v36, v35_apply, Ideal.addf_def]
  rfl

end Cert.ReferenceIdeal.Hand

end
-- ==== Proof.Ref.lean ====
/-
  The reference side: every weakly fair execution of the idealized reference program terminates with its result
  array at the closed function `Attn.final` of its nine argument arrays, the arguments unchanged. The run is the
  operations' composed term; read stage by stage and index by index, that term is the projections, the scaled
  scores, their row-wise softmax, the weighted sum of the values, and the last linear map with the residual sums.
-/
import proofs.«110986_j16475494547544_2_alg».proof.Proof.Ref.Tail

noncomputable section

namespace Cert.ReferenceIdeal.Hand

open Cert.ReferenceIdeal Cert.ReferenceIdeal.Gen Idealize.ShloMosaic Idealize.ShloMosaic.TcCoe Idealize.SL.Sem Idealize.ShloMosaic.StableHlo

theorem run_final (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v41) = Attn.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.ReferenceIdeal.defs (F := Ideal)) _ _).mono
    (fun _ h c => ⟨(h c).1.trans ((Cert.ReferenceIdeal.Read.val_main_v41_eq m c).trans (v41_eq _ _ _ _ _ _ _ _ _)), (h c).2⟩)
    (Cert.ReferenceIdeal.Value.run (F := Ideal) m ρ)

end Cert.ReferenceIdeal.Hand

end
-- ==== Proof.lean ====
/-
  The five claims about the multi-head attention block with two residual sums: the word-level program and the
  program read at the ideal values run to their end, fault nowhere and leave their nine argument arrays as launched,
  as does the reference; the idealization rewrote nothing; and at the ideal values the kernel program and the
  reference, started from memories that agree on the arguments, end with the same result array — both hold the
  one function `Attn.final` of the arguments: three linear projections into the head layout, the scaled scores'
  row-wise softmax weighting the values, the heads laid back side by side, and the fourth linear map with the
  input added before it and twice after it.
-/
import proofs.«110986_j16475494547544_2_alg».proof.Defs
import proofs.«110986_j16475494547544_2_alg».proof.Proof.Gen.Kernel
import proofs.«110986_j16475494547544_2_alg».proof.Proof.Gen.KernelIdeal
import proofs.«110986_j16475494547544_2_alg».proof.Proof.Gen.ReferenceIdeal
import proofs.«110986_j16475494547544_2_alg».proof.Proof.Gen.Pre_finite_inputs
import proofs.«110986_j16475494547544_2_alg».proof.Proof.Gen.ReferenceIdeal.Read
import proofs.«110986_j16475494547544_2_alg».proof.Proof.K.RunMain
import proofs.«110986_j16475494547544_2_alg».proof.Proof.KI.RunMain
import proofs.«110986_j16475494547544_2_alg».proof.Proof.KI.Final
import proofs.«110986_j16475494547544_2_alg».proof.Proof.Ref
import Idealize.ShloMosaic.Adequacy
import Idealize.ShloMosaic.Init

noncomputable section

namespace Cert.Proof

open Idealize.ShloMosaic Idealize.ShloMosaic.TcCoe Idealize.SL.Sem

/-- The word-level program runs to its end and leaves its arguments as launched. -/
theorem frame_k [Cert.Kernel.Facts] [Cert.Pre_finite_inputs.Facts] : Cert.frame_Kernel :=
  fun m g _ => Cert.Kernel.Fr.frame m g

/-- So does the program read at the ideal values. -/
theorem frame_ki [Cert.KernelIdeal.Facts] [Cert.Pre_finite_inputs.Facts] : Cert.frame_KernelIdeal :=
  fun m g _ => Cert.KernelIdeal.Fr.frame m g

/-- The reference's frame is its run with the result dropped. -/
theorem frame_ri [Cert.ReferenceIdeal.Facts] [Cert.Pre_finite_inputs.Facts] : Cert.frame_ReferenceIdeal :=
  fun m g _ => (θ_run Cert.ReferenceIdeal.defs _ _).mono (fun _ h c => (h c).2) (Cert.ReferenceIdeal.Value.run (F := Ideal) m g)

/-- The ideal pass rewrote nothing. -/
theorem preserves : Cert.preserves_Kernel_KernelIdeal := trivial

/-- Both programs end with the result at the one function `Attn.final` of the nine arguments, which agree. -/
theorem algebraic [Cert.KernelIdeal.Facts] [Cert.ReferenceIdeal.Facts] [Cert.Pre_finite_inputs.Facts] :
    Cert.algebraic_KernelIdeal_ReferenceIdeal := by
  intro m g m' g' _ hagree
  refine ⟨fun c => Attn.final
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Fr.run_all m g)
    exact ⟨(h c _ (Cert.KernelIdeal.Fr.mem_uc Cert.KernelIdeal.main_v10 (by decide))).trans (Cert.KernelIdeal.Fr.final_value m g c),
      (h c _ (Cert.KernelIdeal.Fr.mem_uc Cert.KernelIdeal.main_arg0 (by decide))).trans (Cert.KernelIdeal.Fr.W5_main_arg0 m g c),
      (h c _ (Cert.KernelIdeal.Fr.mem_uc Cert.KernelIdeal.main_arg1 (by decide))).trans (Cert.KernelIdeal.Fr.W5_main_arg1 m g c),
      (h c _ (Cert.KernelIdeal.Fr.mem_uc Cert.KernelIdeal.main_arg2 (by decide))).trans (Cert.KernelIdeal.Fr.W5_main_arg2 m g c),
      (h c _ (Cert.KernelIdeal.Fr.mem_uc Cert.KernelIdeal.main_arg3 (by decide))).trans (Cert.KernelIdeal.Fr.W5_main_arg3 m g c),
      (h c _ (Cert.KernelIdeal.Fr.mem_uc Cert.KernelIdeal.main_arg4 (by decide))).trans (Cert.KernelIdeal.Fr.W5_main_arg4 m g c),
      (h c _ (Cert.KernelIdeal.Fr.mem_uc Cert.KernelIdeal.main_arg5 (by decide))).trans (Cert.KernelIdeal.Fr.W5_main_arg5 m g c),
      (h c _ (Cert.KernelIdeal.Fr.mem_uc Cert.KernelIdeal.main_arg6 (by decide))).trans (Cert.KernelIdeal.Fr.W5_main_arg6 m g c),
      (h c _ (Cert.KernelIdeal.Fr.mem_uc Cert.KernelIdeal.main_arg7 (by decide))).trans (Cert.KernelIdeal.Fr.W5_main_arg7 m g c),
      (h c _ (Cert.KernelIdeal.Fr.mem_uc Cert.KernelIdeal.main_arg8 (by decide))).trans (Cert.KernelIdeal.Fr.W5_main_arg8 m g c)⟩
  · refine (θ_run Cert.ReferenceIdeal.defs _ _).mono (fun r h c => ⟨?_, (h c).2⟩) (Cert.ReferenceIdeal.Hand.run_final m' g')
    refine (h c).1.trans ?_
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
